-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x3072 : Shape := ⟨3, ![2, 4096, 3072]⟩
abbrev S16384x3072 : Shape := ⟨2, ![16384, 3072]⟩
abbrev S3072x8192 : Shape := ⟨2, ![3072, 8192]⟩
abbrev S_ : Shape := ⟨0, ![]⟩

class Facts : Prop where
  bcast_S_S2x4096x3072 : S_.BroadcastsInDim S2x4096x3072 (![] : Fin 0 → Fin S2x4096x3072.rank)
  reducesTo_S2x4096x3072_S_d0_1_2 : S2x4096x3072.ReducesTo [0, 1, 2] S_
  h_S_ : 0 < S_.numel
  bcast_S_S16384x3072 : S_.BroadcastsInDim S16384x3072 (![] : Fin 0 → Fin S16384x3072.rank)
  reducesTo_S16384x3072_S_d0_1 : S16384x3072.ReducesTo [0, 1] S_
  bcast_S_S3072x8192 : S_.BroadcastsInDim S3072x8192 (![] : Fin 0 → Fin S3072x8192.rank)
  reducesTo_S3072x8192_S_d0_1 : S3072x8192.ReducesTo [0, 1] S_

variable [Facts]

def fn {F : FTy → Type} [FloatOps F] (main_arg0 : FVec F S2x4096x3072 .f32) (main_arg1 : FVec F S16384x3072 .f32) (main_arg2 : FVec F S3072x8192 .f32) : IVec S_ 1 :=
  let main_v0 : FVec F S2x4096x3072 .f32 := Host.absf main_arg0
  let main_cst : FVec F S_ .f32 := constant S_ .f32 0x7F800000#32
  let main_v1 : FVec F S2x4096x3072 .f32 := broadcastInDim S2x4096x3072 ![] bcast_S_S2x4096x3072 main_cst
  let main_v2 : IVec S2x4096x3072 1 := cmpf .olt main_v0 main_v1
  let main_c : IVec S_ 1 := constantI S_ 1 1#1
  let main_v3 : IVec S_ 1 := (fun x v => Host.reduce IntOp.andi x v reducesTo_S2x4096x3072_S_d0_1_2 h_S_) main_v2 main_c
  let main_v4 : FVec F S16384x3072 .f32 := Host.absf main_arg1
  let main_cst_0 : FVec F S_ .f32 := constant S_ .f32 0x7F800000#32
  let main_v5 : FVec F S16384x3072 .f32 := broadcastInDim S16384x3072 ![] bcast_S_S16384x3072 main_cst_0
  let main_v6 : IVec S16384x3072 1 := cmpf .olt main_v4 main_v5
  let main_c_1 : IVec S_ 1 := constantI S_ 1 1#1
  let main_v7 : IVec S_ 1 := (fun x v => Host.reduce IntOp.andi x v reducesTo_S16384x3072_S_d0_1 h_S_) main_v6 main_c_1
  let main_v8 : IVec S_ 1 := andi main_v3 main_v7
  let main_v9 : FVec F S3072x8192 .f32 := Host.absf main_arg2
  let main_cst_2 : FVec F S_ .f32 := constant S_ .f32 0x7F800000#32
  let main_v10 : FVec F S3072x8192 .f32 := broadcastInDim S3072x8192 ![] bcast_S_S3072x8192 main_cst_2
  let main_v11 : IVec S3072x8192 1 := cmpf .olt main_v9 main_v10
  let main_c_3 : IVec S_ 1 := constantI S_ 1 1#1
  let main_v12 : IVec S_ 1 := (fun x v => Host.reduce IntOp.andi x v reducesTo_S3072x8192_S_d0_1 h_S_) main_v11 main_c_3
  let main_v13 : IVec S_ 1 := andi main_v8 main_v12
  main_v13
-- ==== Kernel.lean ====
abbrev S2x4096x3072 : Shape := ⟨3, ![2, 4096, 3072]⟩
abbrev S16384x3072 : Shape := ⟨2, ![16384, 3072]⟩
abbrev S3072x8192 : Shape := ⟨2, ![3072, 8192]⟩
abbrev S8192x3072 : Shape := ⟨2, ![8192, 3072]⟩
abbrev S512x3072 : Shape := ⟨2, ![512, 3072]⟩
abbrev S256x3072 : Shape := ⟨2, ![256, 3072]⟩
abbrev S3072x256 : Shape := ⟨2, ![3072, 256]⟩
abbrev S512x256 : Shape := ⟨2, ![512, 256]⟩

abbrev nBuf : Space → Nat
  | .hbm => 9
  | .vmem => 11
  | .smem => 0
  | _ => 0

abbrev bufTy : (tb : Table) → Fin (tcTables nBuf tb) → BufTy
  | .hbm, ⟨0, _⟩ => ⟨S2x4096x3072, .f32⟩
  | .hbm, ⟨1, _⟩ => ⟨S16384x3072, .f32⟩
  | .hbm, ⟨2, _⟩ => ⟨S3072x8192, .f32⟩
  | .hbm, ⟨3, _⟩ => ⟨S8192x3072, .f32⟩
  | .hbm, ⟨4, _⟩ => ⟨S8192x3072, .bf16⟩
  | .hbm, ⟨5, _⟩ => ⟨S16384x3072, .bf16⟩
  | .hbm, ⟨6, _⟩ => ⟨S3072x8192, .bf16⟩
  | .hbm, ⟨7, _⟩ => ⟨S8192x3072, .f32⟩
  | .hbm, ⟨8, _⟩ => ⟨S2x4096x3072, .f32⟩
  | .local _ .vmem, ⟨0, _⟩ => ⟨S512x3072, .bf16⟩
  | .local _ .vmem, ⟨1, _⟩ => ⟨S512x3072, .bf16⟩
  | .local _ .vmem, ⟨2, _⟩ => ⟨S256x3072, .bf16⟩
  | .local _ .vmem, ⟨3, _⟩ => ⟨S256x3072, .bf16⟩
  | .local _ .vmem, ⟨4, _⟩ => ⟨S256x3072, .bf16⟩
  | .local _ .vmem, ⟨5, _⟩ => ⟨S256x3072, .bf16⟩
  | .local _ .vmem, ⟨6, _⟩ => ⟨S3072x256, .bf16⟩
  | .local _ .vmem, ⟨7, _⟩ => ⟨S3072x256, .bf16⟩
  | .local _ .vmem, ⟨8, _⟩ => ⟨S512x3072, .f32⟩
  | .local _ .vmem, ⟨9, _⟩ => ⟨S512x3072, .f32⟩
  | .local _ .vmem, ⟨10, _⟩ => ⟨S512x3072, .f32⟩
  | _, _ => ⟨S2x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v30 : BitVec 1 := Scalar.cmpi .eq arg1 c31_i32
  let v31 : BitVec 32 := Scalar.extui v30
  let c0_i32_16 : BitVec 32 := 0#32
  let v32 : BitVec 1 := Scalar.cmpi .ne v31 c0_i32_16
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3072x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x4096x3072_S8192x3072 : S2x4096x3072.ShapeCasts S8192x3072
  bitsLt_bf16_f32 : FTy.bits .bf16 < FTy.bits .f32
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  transposes_S256x3072_p1_0_S3072x256 : S256x3072.Transposes [1, 0] S3072x256
  inb_S3072x256_S3072x256_0_0 : ∀ a, (![0, 0] : Fin 2 → Nat) a + S3072x256.size a ≤ S3072x256.size a
  h_S3072x256 : 0 < S3072x256.numel
  shapeCasts_S3072x256_S3072x256 : S3072x256.ShapeCasts S3072x256
  transposes_S3072x256_p1_0_S256x3072 : S3072x256.Transposes [1, 0] S256x3072
  shapeCasts_S8192x3072_S2x4096x3072 : S8192x3072.ShapeCasts S2x4096x3072
  dot_S512x3072_S3072x256_S512x256_1_0_0_1_n_n_wf : DotDims.WF S512x3072 S3072x256 S512x256 [1] [0] [0] [1] [] []
  dot_S512x256_S256x3072_S512x3072_1_0_0_1_n_n_wf : DotDims.WF S512x256 S256x3072 S512x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S8192x3072.size a
  hwx0_0 : ∀ i : grid0.Coords, EltTy.bits .bf16 = 32 ∨ (Rect.block (s := S8192x3072) S512x3072.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3072.size a ≤ S16384x3072.size a
  hwx0_1 : ∀ i : grid0.Coords, EltTy.bits .bf16 = 32 ∨ (Rect.block (s := S16384x3072) S256x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3072.size a ≤ S16384x3072.size a
  hwx0_2 : ∀ i : grid0.Coords, EltTy.bits .bf16 = 32 ∨ (Rect.block (s := S16384x3072) S256x3072.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3072x256.size a ≤ S3072x8192.size a
  hwx0_3 : ∀ i : grid0.Coords, EltTy.bits .bf16 = 32 ∨ (Rect.block (s := S3072x8192) S3072x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x3072.size a ≤ S8192x3072.size a
  hwx0_4 : ∀ i : grid0.Coords, EltTy.bits .f32 = 32 ∨ (Rect.block (s := S8192x3072) S512x3072.size (cc0_transform_4 i) (hinb0_4 i)).WholeWords (EltTy.packing .f32)

variable [Facts₀]

def dot_S512x3072_S3072x256_S512x256_1_0_0_1_n_n : DotDims S512x3072 S3072x256 S512x256 where
  lhsContracting := [1]
  rhsContracting := [0]
  lhsNonContracting := [0]
  rhsNonContracting := [1]
  lhsBatch := []
  rhsBatch := []
  wf := dot_S512x3072_S3072x256_S512x256_1_0_0_1_n_n_wf
def dot_S512x256_S256x3072_S512x3072_1_0_0_1_n_n : DotDims S512x256 S256x3072 S512x3072 where
  lhsContracting := [1]
  rhsContracting := [0]
  lhsNonContracting := [0]
  rhsNonContracting := [1]
  lhsBatch := []
  rhsBatch := []
  wf := dot_S512x256_S256x3072_S512x3072_1_0_0_1_n_n_wf

abbrev win0_0 : Pipeline.Window sig grid0 :=
  Pipeline.Window.ofSpec (Memref.whole main_v1) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x3072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S3072x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x3072.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x4096x3072 : Shape := ⟨3, ![2, 4096, 3072]⟩
abbrev S16384x3072 : Shape := ⟨2, ![16384, 3072]⟩
abbrev S3072x8192 : Shape := ⟨2, ![3072, 8192]⟩
abbrev S2x4096x16384 : Shape := ⟨3, ![2, 4096, 16384]⟩
abbrev S2x4096x8192 : Shape := ⟨3, ![2, 4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x3072, .f32⟩
  | .hbm, ⟨1, _⟩ => ⟨S16384x3072, .f32⟩
  | .hbm, ⟨2, _⟩ => ⟨S3072x8192, .f32⟩
  | .hbm, ⟨3, _⟩ => ⟨S2x4096x16384, .f32⟩
  | .hbm, ⟨4, _⟩ => ⟨S2x4096x8192, .f32⟩
  | .hbm, ⟨5, _⟩ => ⟨S2x4096x8192, .f32⟩
  | .hbm, ⟨6, _⟩ => ⟨S2x4096x8192, .f32⟩
  | .hbm, ⟨7, _⟩ => ⟨S2x4096x8192, .f32⟩
  | .hbm, ⟨8, _⟩ => ⟨S_, .f32⟩
  | .hbm, ⟨9, _⟩ => ⟨S2x4096x8192, .f32⟩
  | .hbm, ⟨10, _⟩ => ⟨S2x4096x8192, .f32⟩
  | .hbm, ⟨11, _⟩ => ⟨S_, .f32⟩
  | .hbm, ⟨12, _⟩ => ⟨S2x4096x8192, .f32⟩
  | .hbm, ⟨13, _⟩ => ⟨S2x4096x8192, .f32⟩
  | .hbm, ⟨14, _⟩ => ⟨S2x4096x8192, .f32⟩
  | .hbm, ⟨15, _⟩ => ⟨S2x4096x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x4096x8192, .f32⟩
  | .hbm, ⟨20, _⟩ => ⟨S2x4096x8192, .f32⟩
  | .hbm, ⟨21, _⟩ => ⟨S_, .f32⟩
  | .hbm, ⟨22, _⟩ => ⟨S2x4096x8192, .f32⟩
  | .hbm, ⟨23, _⟩ => ⟨S2x4096x8192, .f32⟩
  | .hbm, ⟨24, _⟩ => ⟨S2x4096x3072, .f32⟩
  | _, _ => ⟨S2x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_cst_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]

class Facts₀ : Prop where
  slices_S2x4096x16384_S2x4096x8192_0_0_0 : S2x4096x16384.Slices ![0, 0, 0] S2x4096x8192
  slices_S2x4096x16384_S2x4096x8192_0_0_8192 : S2x4096x16384.Slices ![0, 0, 8192] S2x4096x8192
  bcast_S_S2x4096x8192 : S_.BroadcastsInDim S2x4096x8192 (![] : Fin 0 → Fin S2x4096x8192.rank)
  dot_S2x4096x3072_S16384x3072_S2x4096x16384_2_1_01_0_n_n_wf : DotDims.WF S2x4096x3072 S16384x3072 S2x4096x16384 [2] [1] [0, 1] [0] [] []
  dot_S2x4096x8192_S3072x8192_S2x4096x3072_2_1_01_0_n_n_wf : DotDims.WF S2x4096x8192 S3072x8192 S2x4096x3072 [2] [1] [0, 1] [0] [] []

variable [Facts₀]

def dot_S2x4096x3072_S16384x3072_S2x4096x16384_2_1_01_0_n_n : DotDims S2x4096x3072 S16384x3072 S2x4096x16384 where
  lhsContracting := [2]
  rhsContracting := [1]
  lhsNonContracting := [0, 1]
  rhsNonContracting := [0]
  lhsBatch := []
  rhsBatch := []
  wf := dot_S2x4096x3072_S16384x3072_S2x4096x16384_2_1_01_0_n_n_wf
def dot_S2x4096x8192_S3072x8192_S2x4096x3072_2_1_01_0_n_n : DotDims S2x4096x8192 S3072x8192 S2x4096x3072 where
  lhsContracting := [2]
  rhsContracting := [1]
  lhsNonContracting := [0, 1]
  rhsNonContracting := [0]
  lhsBatch := []
  rhsBatch := []
  wf := dot_S2x4096x8192_S3072x8192_S2x4096x3072_2_1_01_0_n_n_wf

class Facts : Prop extends Facts₀ where

variable [Facts]
-- ==== Proof.FrameBaseK.lean ====
import proofs.«115799_j50749333570204_1_alg».proof.Proof.Gen.Kernel.Launch
import proofs.«115799_j50749333570204_1_alg».proof.Proof.Gen.Kernel.Skeleton
import proofs.«115799_j50749333570204_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev V0 (c : Dev nD) : Valuation τ sig (Elt F) := fun b => m (c, b)
/-- after the four host operations before the call (the reshape of the input and the three changes of format); -/
abbrev V1 (c : Dev nD) : Valuation τ sig (Elt F) := StableHlo.after hostOps0 (V0 m c)
/-- and the same read at a TensorCore reference. -/
abbrev V (c : Dev nD) (b : Ref sig .tc) : Buf (Elt F) ((c : Thread nD τ).loc b) := V1 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not: where it is not
    fetched the block index has not moved since the point before, and the body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, over the grid -/

/-- The first conditional (the running sum is zeroed): the second grid coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 32). -/
theorem hcond0_0 : ∀ t : Fin cfg0.N, cond0_0 (grid0.coords t) ↔ t.val % 32 = 0 :=
  (by decide +kernel : ∀ t : Fin grid0.N, cond0_0 (grid0.coords t) ↔ t.val % 32 = 0)
/-- The second conditional (the running sum is copied out): the second grid coordinate is 31. -/
abbrev cond0_1 (i : grid0.Coords) : Prop := k0_cond2 i = 1#1
/-- It holds at the points ≡ 31 (mod 32). -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the running sum is not copied out the result window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it is, the window is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S512x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3072x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x3072 .f32 := win0_4.stage (cfg0.slots t 4)
abbrev hs0_4 (t : Fin cfg0.N) : (ms0_4 t).IsWhole := hstage0_4 ((cfg0.slots t 4).cast nbuf0_4)
/-- The running sum's buffer: a whole scoped buffer of the kernel's own. -/
abbrev scM0_0 : Memref sig .tc .vmem S512x3072 .f32 := Memref.whole cc0_scratch0

/-- The scoped rest and the generator register, with the running sum's buffer as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The whole-block rectangle's offsets are zero. -/
theorem hz2 : (![0, 0] : Fin 2 → Nat) = fun _ => 0 := by funext a; fin_cases a <;> rfl

end Cert.Kernel.Gen

end
-- ==== Proof.FrameRunsK.lean ====
import proofs.«115799_j50749333570204_1_alg».proof.Proof.FrameBaseK
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, run once per case of its two conditionals

Every load and store goes through the whole-block rectangle of a whole staging buffer, so a load reads the buffer's
contents and the last store leaves its payload. The three cases the grid meets: the first point of a row of tiles (the
running sum is zeroed, then the tile's product added), a middle point (the product is added to what the point before
left) and the last point (the same, and the running sum is then copied into the result's buffer). -/

set_option maxHeartbeats 1000000 in
/-- First point of a row of tiles: the running sum ends at the tile's product added to zero; the result's buffer is
    handed back as it was. -/
theorem runA (c : Dev nD) (i : grid0.Coords)
    (arg2 : Memref sig .tc .vmem S512x3072 .bf16) (harg2 : arg2.IsWhole) (arg3 : Memref sig .tc .vmem S256x3072 .bf16) (harg3 : arg3.IsWhole)
    (arg4 : Memref sig .tc .vmem S256x3072 .bf16) (harg4 : arg4.IsWhole) (arg5 : Memref sig .tc .vmem S3072x256 .bf16) (harg5 : arg5.IsWhole)
    (arg6 : Memref sig .tc .vmem S512x3072 .f32) (harg6 : arg6.IsWhole) (arg7 : Memref sig .tc .vmem S512x3072 .f32) (harg7 : arg7.IsWhole)
    (hc0 : cond0_0 i) (hc1 : ¬cond0_1 i)
    (x0 : Vec F S512x3072 .bf16) (x1 x2 : Vec F S256x3072 .bf16) (x3 : Vec F S3072x256 .bf16) (xi4 : Vec F S512x3072 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4
            ∗ owns (c : Thread nD τ) arg7 fullShare (k0_pay2 x0 x1 x2 x3 (k0_pay1 (F := F)))) -∗ K ⟨⟩))
      ⊢ wp frame (wpE (defs₀ (F := F)) Variants.none c none) E (cc0__ffn_kernel i arg2 harg2 arg3 harg3 arg4 harg4 arg5 harg5 arg6 harg6 arg7 harg7) K := by
  simp only [cc0__ffn_kernel_eq_skeleton]; unfold cc0__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact HS0
  ipureintro
  refine (View.read_writes_eq_canon _ _ _ (fun y => ⟨_, List.mem_cons_self .., View.mem_set_unit_zero hz2 inb_S512x3072_S512x3072_0_0 y⟩)).trans ?_
  rw [View.canon_cons_unit_zero hz2]
  simp only [View.readAt_eq_ld, hf0, hf1, hf2, hf3]
  sl_unfold_run_names
  rw [View.readCov_unit_zero _ hz2]
  congr 1 <;> exact View.ld_unit_zero hz2 _ _

set_option maxHeartbeats 1000000 in
/-- A middle point: the running sum ends at the tile's product added to what it held; the result's buffer is handed
    back as it was. -/
theorem runB (c : Dev nD) (i : grid0.Coords)
    (arg2 : Memref sig .tc .vmem S512x3072 .bf16) (harg2 : arg2.IsWhole) (arg3 : Memref sig .tc .vmem S256x3072 .bf16) (harg3 : arg3.IsWhole)
    (arg4 : Memref sig .tc .vmem S256x3072 .bf16) (harg4 : arg4.IsWhole) (arg5 : Memref sig .tc .vmem S3072x256 .bf16) (harg5 : arg5.IsWhole)
    (arg6 : Memref sig .tc .vmem S512x3072 .f32) (harg6 : arg6.IsWhole) (arg7 : Memref sig .tc .vmem S512x3072 .f32) (harg7 : arg7.IsWhole)
    (hc0 : ¬cond0_0 i) (hc1 : ¬cond0_1 i)
    (x0 : Vec F S512x3072 .bf16) (x1 x2 : Vec F S256x3072 .bf16) (x3 : Vec F S3072x256 .bf16) (xi4 xs : Vec F S512x3072 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4
            ∗ owns (c : Thread nD τ) arg7 fullShare (k0_pay2 x0 x1 x2 x3 xs)) -∗ K ⟨⟩))
      ⊢ wp frame (wpE (defs₀ (F := F)) Variants.none c none) E (cc0__ffn_kernel i arg2 harg2 arg3 harg3 arg4 harg4 arg5 harg5 arg6 harg6 arg7 harg7) K := by
  simp only [cc0__ffn_kernel_eq_skeleton]; unfold cc0__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg5.eq_unread hf3
  obtain rfl := harg7.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact HS0
  ipureintro
  refine (View.read_writes_eq_canon _ _ _ (fun y => ⟨_, List.mem_cons_self .., View.mem_set_unit_zero hz2 inb_S512x3072_S512x3072_0_0 y⟩)).trans ?_
  rw [View.canon_cons_unit_zero hz2]
  simp only [View.readAt_eq_ld, hf0, hf1, hf2, hf3, hfs0]
  sl_unfold_run_names
  congr 1 <;> exact View.ld_unit_zero hz2 _ _

set_option maxHeartbeats 1000000 in
/-- The last point of a row of tiles: the running sum ends at the tile's product added to what it held, and the
    result's buffer ends holding the same. -/
theorem runC (c : Dev nD) (i : grid0.Coords)
    (arg2 : Memref sig .tc .vmem S512x3072 .bf16) (harg2 : arg2.IsWhole) (arg3 : Memref sig .tc .vmem S256x3072 .bf16) (harg3 : arg3.IsWhole)
    (arg4 : Memref sig .tc .vmem S256x3072 .bf16) (harg4 : arg4.IsWhole) (arg5 : Memref sig .tc .vmem S3072x256 .bf16) (harg5 : arg5.IsWhole)
    (arg6 : Memref sig .tc .vmem S512x3072 .f32) (harg6 : arg6.IsWhole) (arg7 : Memref sig .tc .vmem S512x3072 .f32) (harg7 : arg7.IsWhole)
    (hc0 : ¬cond0_0 i) (hc1 : cond0_1 i)
    (x0 : Vec F S512x3072 .bf16) (x1 x2 : Vec F S256x3072 .bf16) (x3 : Vec F S3072x256 .bf16) (xs : Vec F S512x3072 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k0_pay2 x0 x1 x2 x3 xs)
            ∗ owns (c : Thread nD τ) arg7 fullShare (k0_pay2 x0 x1 x2 x3 xs)) -∗ K ⟨⟩))
      ⊢ wp frame (wpE (defs₀ (F := F)) Variants.none c none) E (cc0__ffn_kernel i arg2 harg2 arg3 harg3 arg4 harg4 arg5 harg5 arg6 harg6 arg7 harg7) K := by
  simp only [cc0__ffn_kernel_eq_skeleton]; unfold cc0__ffn_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2; obtain rfl := harg5.eq_unread hf3
  obtain rfl := harg7.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    refine (View.read_writes_eq_canon _ _ _ (fun y => ⟨_, List.mem_cons_self .., View.mem_set_unit_zero hz2 inb_S512x3072_S512x3072_0_0 y⟩)).trans ?_
    rw [View.canon_cons_unit_zero hz2]
    sl_unfold_run_names
    rw [View.readCov_unit_zero _ hz2]
    simp only [View.readAt_eq_ld, hf0, hf1, hf2, hf3, hfs0]
    congr 1 <;> exact View.ld_unit_zero hz2 _ _
  iexists _; isplitr; swap; · iexact HS0
  ipureintro
  refine (View.read_writes_eq_canon _ _ _ (fun y => ⟨_, List.mem_cons_self .., View.mem_set_unit_zero hz2 inb_S512x3072_S512x3072_0_0 y⟩)).trans ?_
  rw [View.canon_cons_unit_zero hz2]
  simp only [View.readAt_eq_ld, hf0, hf1, hf2, hf3, hfs0]
  sl_unfold_run_names
  congr 1 <;> exact View.ld_unit_zero hz2 _ _

end Cert.Kernel.Gen

end
-- ==== Proof.FrameDataK.lean ====
import proofs.«115799_j50749333570204_1_alg».proof.Proof.FrameRunsK
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running sum, point by point -/

/-- What the body's accumulating store leaves at point `t` when the running sum held `acc`: the tile's product,
    computed from the four input blocks at the point, added to `acc`. -/
def stepAt (c : Dev nD) (t : Fin cfg0.N) (acc : Vec F S512x3072 .f32) : Vec F S512x3072 .f32 :=
  k0_pay2 (iblk m c 0 t) (iblk m c 1 t) (iblk m c 2 t) (iblk m c 3 t) acc

/-- The running sum after the body at position `n`: at the first point of each row of tiles (n ≡ 0 mod 32) the step
    from the zero fill, elsewhere the step from what the point before left. -/
def scrAt (c : Dev nD) : (n : ℕ) → n < cfg0.N → Vec F S512x3072 .f32
  | 0, hn => stepAt m c ⟨0, hn⟩ (k0_pay1 (F := F))
  | n + 1, hn =>
    if (n + 1) % 32 = 0 then stepAt m c ⟨n + 1, hn⟩ (k0_pay1 (F := F))
    else stepAt m c ⟨n + 1, hn⟩ (scrAt c n (Nat.lt_of_succ_lt hn))

theorem scrAt_first (c : Dev nD) (t : Fin cfg0.N) (h0 : t.val % 32 = 0) :
    scrAt m c t.val t.isLt = stepAt m c t (k0_pay1 (F := F)) := by
  obtain ⟨n, hn⟩ := t
  cases n with
  | zero => rfl
  | succ n => exact if_pos h0

theorem scrAt_next (c : Dev nD) (t : Fin cfg0.N) (h0 : ¬t.val % 32 = 0) :
    scrAt m c t.val t.isLt = stepAt m c t (scrAt m c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point the running sum's buffer holds anything;
    afterwards it holds what the point before left. The generator register rides along. -/
def PhiS (c : Dev nD) : (n : ℕ) → n ≤ cfg0.N → sProp 𝕄
  | 0, _ => Pipeline.ΦA spec0 c
  | n + 1, hn => iprop(iprop(owns (c : Thread nD τ) scM0_0 fullShare (scrAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scrAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (scrAt m c (n - 1) (by omega))) ∗ (∃ r, prngReg c r)) := by
  cases n with
  | zero => exact absurd rfl hz
  | succ n => rfl

/-! ## The proof data -/

/-- The arrays as the region finds them; after the body each input's buffer at its block and the result's at the
    running sum; the invariant above; nothing owed. The fused weight is read through two windows: each holds half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => scrAt m c t.val t.isLt
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = scrAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
/-- The body at any point: the inputs' buffers hold their blocks; the point's position in its row of tiles says which
    case runs; the invariant hands the body the running sum at what the point before left (anything at the very
    first point) and takes it back at this point's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 512 := lt_of_lt_of_eq t.isLt (show cfg0.N = 512 from N_0)
  by_cases h0 : t.val % 32 = 0
  · have h1 : ¬t.val % 32 = 31 := by omega
    have hc0 : cond0_0 (grid0.coords t) := (hcond0_0 t).mpr h0
    have hc1 : ¬cond0_1 (grid0.coords t) := fun h => h1 ((hcond0_1 t).mp h)
    rw [Dat.leavesExact_idle (dats m 0 c) 4 t (idleAt0_4 t hc1) (noFlush0_4 t hc1)]
    rw [scrAt_first m c t h0]; unfold stepAt
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond0_0 (grid0.coords t) := fun h => h0 ((hcond0_0 t).mp h)
    rw [PhiS_castSucc m c t, PhiS_pos m c _ _ hz]
    rw [scrAt_next m c t h0]; unfold stepAt
    by_cases h1 : t.val % 32 = 31
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4, scrAt_next m c t h0]
      unfold stepAt
      iintro ⟨⟨HS0, Hg⟩, Ho, ⟨%d0, H0⟩, ⟨%d1, H1⟩, ⟨%d2, H2⟩, ⟨%d3, H3⟩, ⟨%d4, H4⟩⟩
      iapply (runC c (grid0.coords t) _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dats m 0 c) 4 t (idleAt0_4 t hc1) (noFlush0_4 t hc1)]
      iintro ⟨⟨HS0, Hg⟩, Ho, ⟨%d0, H0⟩, ⟨%d1, H1⟩, ⟨%d2, H2⟩, ⟨%d3, H3⟩, ⟨%d4, H4⟩⟩
      iapply (runB c (grid0.coords t) _ _ _ _ _ _ _ _ _ _ _ _ hc0 hc1 (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the running sum's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 512 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

end Cert.Kernel.Gen

end
-- ==== Proof.FrameLaunchK.lean ====
import proofs.«115799_j50749333570204_1_alg».proof.Proof.FrameDataK
import Idealize.ShloMosaic.Lib.StableHlo.Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch: @main as two host stretches around the region -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- A buffer of core `c` held whole at contents `f`. -/
abbrev pt (c : Dev nD) (b : Ref sig .tc) (f : Buf (Elt F) ((c : Thread nD τ).loc b)) : sProp 𝕄 := ((c : Thread nD τ).loc b) ↦{fullShare} f

/-- What rides beside the buffers: the generator register and the core's `owes`. -/
abbrev R (c : Dev nD) : sProp 𝕄 := iprop((∃ r, prngReg c r) ∗ ∃ W, owes (c : Thread nD τ) (0 : CellTallies nD τ sig Unit) W)

/-- No host operation before the call writes an argument, the call's result or the final result. -/
theorem hostOps0_keeps (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

theorem V_main_arg0 (c : Dev nD) : V m c main_arg0 = m ((c : Thread nD τ).loc main_arg0) :=
  StableHlo.after_of_forall_not_mem (b := Proc.devRef .tc main_arg0) hostOps0 (V0 m c) (hostOps0_keeps main_arg0 (by decide))
theorem V_main_arg1 (c : Dev nD) : V m c main_arg1 = m ((c : Thread nD τ).loc main_arg1) :=
  StableHlo.after_of_forall_not_mem (b := Proc.devRef .tc main_arg1) hostOps0 (V0 m c) (hostOps0_keeps main_arg1 (by decide))
theorem V_main_arg2 (c : Dev nD) : V m c main_arg2 = m ((c : Thread nD τ).loc main_arg2) :=
  StableHlo.after_of_forall_not_mem (b := Proc.devRef .tc main_arg2) hostOps0 (V0 m c) (hostOps0_keeps main_arg2 (by decide))

/-- The windows' arrays, one by one: the fused weight is behind two windows, half a share each. -/
theorem arrays0_eq (c : Dev nD) (Fa : (w : Fin cfg0.W) → Buf (Elt F) ((cfg0.win w).arr.view.loc (c : Thread nD τ))) :
    ((dats m 0 c).arrays Fa : sProp 𝕄)
      = iprop((((c : Thread nD τ).loc main_v1) ↦{fullShare} Fa 0) ∗ (((c : Thread nD τ).loc main_v2) ↦{fullShare.left} Fa 1)
          ∗ (((c : Thread nD τ).loc main_v2) ↦{fullShare.right} Fa 2) ∗ (((c : Thread nD τ).loc main_v3) ↦{fullShare} Fa 3)
          ∗ (((c : Thread nD τ).loc main_v4) ↦{fullShare} Fa 4)) := by
  unfold Dat.arrays
  rw [bigSep_W0]
  rw [(arr_whole0 0).set_eq_univ, (arr_whole0 1).set_eq_univ, (arr_whole0 3).set_eq_univ, (arr_whole0 4).set_eq_univ]
  rfl

/-- The distinct buffers behind the windows' arrays. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop(pt c main_v1 (W main_v1) ∗ pt c main_v2 (W main_v2) ∗ pt c main_v3 (W main_v3) ∗ pt c main_v4 (W main_v4)) := by
  unfold Pipeline.arrBufs
  rw [bigSep_eq_bigSepL_of_eq [main_v1, main_v2, main_v3, main_v4] (by decide) (by decide)]
  rfl

/-- The two buffers the reshape after the call touches. -/
def S1 : Finset (DevRef τ sig) := {Proc.devRef .tc main_v4, Proc.devRef .tc main_v5}

theorem heldS1_eq (c : Dev nD) (W : Valuation τ sig (Elt F)) : (StableHlo.held (c : Thread nD τ) S1 W : sProp 𝕄)
    = iprop(pt c main_v4 (W (Proc.devRef .tc main_v4)) ∗ pt c main_v5 (W (Proc.devRef .tc main_v5))) := by
  unfold StableHlo.held S1
  rw [bigSep_eq_bigSepL_of_eq [Proc.devRef .tc main_v4, Proc.devRef .tc main_v5] (by decide) (by decide)]
  rfl

/-- The buffers as the region leaves them: the call's result at what the write-backs made of it. -/
abbrev V2 (c : Dev nD) : Valuation τ sig (Elt F) :=
  Function.update (V1 m c) (Proc.devRef .tc main_v4) ((dats m 0 c).arrAt 4 cfg0.N)
/-- And after the reshape that follows. -/
abbrev V3 (c : Dev nD) : Valuation τ sig (Elt F) := StableHlo.after hostOps1 (V2 m c)

theorem V2_v4 (c : Dev nD) : V2 m c (Proc.devRef .tc main_v4) = (dats m 0 c).arrAt 4 cfg0.N := Function.update_self ..
theorem V2_v5 (c : Dev nD) : V2 m c (Proc.devRef .tc main_v5) = V m c main_v5 := Function.update_of_ne (by decide) ..

/-- The arguments, as they bypass the region. -/
abbrev Args (c : Dev nD) : sProp 𝕄 :=
  iprop(pt c main_arg0 (V m c main_arg0) ∗ pt c main_arg1 (V m c main_arg1) ∗ pt c main_arg2 (V m c main_arg2))

/-- THE FIRST HOST STRETCH: the reshape and the three changes of format, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V0 m) R

theorem hostOps1_sub_S1 : ∀ op ∈ (hostOps1 (F := F)), op.bufs ⊆ S1 := fun op h => by
  simp only [List.mem_singleton] at h; subst h
  show ({Proc.devRef .tc main_v4, Proc.devRef .tc main_v5} : Finset (DevRef τ sig)) ⊆ S1
  exact Finset.Subset.refl _

/-- THE LAST HOST STRETCH: the reshape of the call's result. -/
def seg1 : Pipeline.HostSeg (Name := ℕ) (U := UR sig nD τ) (pcfgs (F := F)) defs₀ 𝒱₀ L lv :=
  Pipeline.HostSeg.ofOps _ _ _ _ _ S1 hostOps1 hostOps1_sub_S1
    (by intro _ h; (repeat (cases h with | head => rfl | tail _ h => ?_)); exact nomatch h) (V2 m)
    (fun c => iprop(Args m c ∗ ∃ W, owes (c : Thread nD τ) (0 : CellTallies nD τ sig Unit) W))

set_option backward.isDefEq.respectTransparency.types false in
/-- THE REGION: entered from what the first stretch left — the windows' arrays into the pipeline (the fused weight's
    buffer split between its two windows), the generator register into the invariant, the arguments and the final
    result's buffer bypassing —, left with the call's result at its final contents. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) S1 (V2 m c) ∗ (Args m c ∗ ∃ W, owes (c : Thread nD τ) (0 : CellTallies nD τ sig Unit) W))
  X c := iprop(∃ r, prngReg c r)
  Y c := iprop(∃ r, prngReg c r)
  Z c := iprop(Args m c ∗ pt c main_v5 (V m c main_v5))
  hentry c := by
    rw [show StableHlo.held (c : Thread nD τ) (Pipeline.ucRefs τ sig) (V1 m c) = unscopedBufs c (V m c) from (Pipeline.unscopedBufs_held c _).symm,
      Pipeline.ownSems0_none, Pipeline.unscopedBufs_split₀ cfgs 0 winFacts₀0.arr_unscoped c (V m c), unscopedRest0_eq, arrBufs0_eq, arrays0_eq]
    iintro ⟨⟨⟨⟨Hv1, Hv2, Hv3, Hv4⟩, ⟨Ha0, Ha1, Ha2, -, Hv5⟩⟩, ⟨Hg, HO⟩⟩, -, -⟩
    ihave Hv2' := (pointsTo_share (PosShare.mem_left_op_right fullShare)).1 $$ Hv2
    icases Hv2' with ⟨Hv2l, Hv2r⟩
    imodintro
    isplitl [Hv1 Hv2l Hv2r Hv3 Hv4]
    · isplitl [Hv1]; · iexact Hv1
      isplitl [Hv2l]; · iexact Hv2l
      isplitl [Hv2r]; · iexact Hv2r
      isplitl [Hv3]; · iexact Hv3
      iexact Hv4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    isplitl [Ha0 Ha1 Ha2]
    · isplitl [Ha0]; · iexact Ha0
      isplitl [Ha1]; · iexact Ha1
      iexact Ha2
    iexact Hv5
  hin c := (show _ ⊢ Pipeline.ΦA spec0 c from by
      unfold Pipeline.ΦA; iintro ⟨Hp, -, Hr⟩
      isplitl [Hr] <;> iassumption).trans (hin m c)
  hout c := (hout m c).trans (by
      rw [Pipeline.ownSems0_none]; unfold Pipeline.ΦA
      iintro ⟨Hr, Hp⟩
      isplitl [Hp]; · iexact Hp
      isplitr; · iempintro
      iexact Hr)
  hexit c := by
    rw [arrays0_eq, heldS1_eq, V2_v4, V2_v5]
    iintro ⟨⟨-, -, -, -, Hv4⟩, HO, -, ⟨HA, Hv5⟩⟩
    imodintro
    isplitl [Hv4 Hv5]
    · isplitl [Hv4] <;> iassumption
    isplitl [HA]; · iexact HA
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The last thread state: the reshaped result and the arguments. -/
abbrev Tₙ (c : Dev nD) : sProp 𝕄 := iprop(StableHlo.held (c : Thread nD τ) S1 (V3 m c) ∗ Args m c)

set_option backward.isDefEq.respectTransparency.types false in
/-- THE RUN, at any float values: from any memory with zero counters every weakly fair execution of @main terminates,
    nothing faulting, and every final state has the final result's buffer at the reshape of what the write-backs made
    of the call's result, and the three arguments as launched. -/
theorem run_main : θ_run defs (onTc (τ := τ) (main (F := F))) (s₀ m ρ) (fun r => ∀ c : Dev nD,
    r.2.mem ((c.tc : Thread nD τ).loc main_v5) = V3 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun c => by
      show iprop(StableHlo.held (c : Thread nD τ) S1 (V3 m c) ∗ (Args m c ∗ ∃ W, owes (c : Thread nD τ) (0 : CellTallies nD τ sig Unit) W))
        ⊢ iprop(Tₙ m c ∗ ∃ W, owes (c : Thread nD τ) (0 : CellTallies nD τ sig Unit) W)
      iintro ⟨Hh, HA, HO⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, Hg, -⟩, -⟩
      imodintro
      isplitl [Hh]; · iexact Hh
      isplitl [Hg]; · iexists _; iexact Hg
      iexists ∅; iexact HO)
    (QY := fun c s => s.mem ((c : Thread nD τ).loc main_v5) = V3 m c (Proc.devRef .tc main_v5)
      ∧ s.mem ((c : Thread nD τ).loc main_arg0) = V m c main_arg0 ∧ s.mem ((c : Thread nD τ).loc main_arg1) = V m c main_arg1
      ∧ s.mem ((c : Thread nD τ).loc main_arg2) = V m c main_arg2)
    (hfin := fun c s' => by
      dsimp only [Tₙ]; rw [heldS1_eq]
      iintro ⟨⟨⟨-, H5⟩, H0, H1, H2⟩, HSI⟩
      icombine HSI H5 gives %h5
      icombine HSI H0 gives %h0
      icombine HSI H1 gives %h1
      icombine HSI H2 gives %h2
      imodintro
      isplitr; · ipureintro; exact ⟨Buf.eq_of_forall_mem_univ h5, Buf.eq_of_forall_mem_univ h0, Buf.eq_of_forall_mem_univ h1, Buf.eq_of_forall_mem_univ h2⟩
      iexact HSI)
    (hQ := fun s h c => by
      obtain ⟨h5, h0, h1, h2⟩ := h c
      rw [V_main_arg0] at h0; rw [V_main_arg1] at h1; rw [V_main_arg2] at h2
      exact ⟨h5, h0, h1, h2⟩)

end Cert.Kernel.Gen

end
-- ==== Proof.FrameBase.lean ====
import proofs.«115799_j50749333570204_1_alg».proof.Proof.Gen.KernelIdeal.Launch
import proofs.«115799_j50749333570204_1_alg».proof.Proof.Gen.KernelIdeal.Skeleton
import proofs.«115799_j50749333570204_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev V0 (c : Dev nD) : Valuation τ sig (Elt F) := fun b => m (c, b)
/-- after the four host operations before the call (the reshape of the input and the three changes of format); -/
abbrev V1 (c : Dev nD) : Valuation τ sig (Elt F) := StableHlo.after hostOps0 (V0 m c)
/-- and the same read at a TensorCore reference. -/
abbrev V (c : Dev nD) (b : Ref sig .tc) : Buf (Elt F) ((c : Thread nD τ).loc b) := V1 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not: where it is not
    fetched the block index has not moved since the point before, and the body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, over the grid -/

/-- The first conditional (the running sum is zeroed): the second grid coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 32). -/
theorem hcond0_0 : ∀ t : Fin cfg0.N, cond0_0 (grid0.coords t) ↔ t.val % 32 = 0 :=
  (by decide +kernel : ∀ t : Fin grid0.N, cond0_0 (grid0.coords t) ↔ t.val % 32 = 0)
/-- The second conditional (the running sum is copied out): the second grid coordinate is 31. -/
abbrev cond0_1 (i : grid0.Coords) : Prop := k0_cond2 i = 1#1
/-- It holds at the points ≡ 31 (mod 32). -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the running sum is not copied out the result window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it is, the window is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S512x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3072x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x3072 .f32 := win0_4.stage (cfg0.slots t 4)
abbrev hs0_4 (t : Fin cfg0.N) : (ms0_4 t).IsWhole := hstage0_4 ((cfg0.slots t 4).cast nbuf0_4)
/-- The running sum's buffer: a whole scoped buffer of the kernel's own. -/
abbrev scM0_0 : Memref sig .tc .vmem S512x3072 .f32 := Memref.whole cc0_scratch0

/-- The scoped rest and the generator register, with the running sum's buffer as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The whole-block rectangle's offsets are zero. -/
theorem hz2 : (![0, 0] : Fin 2 → Nat) = fun _ => 0 := by funext a; fin_cases a <;> rfl

end Cert.KernelIdeal.Gen

end
-- ==== Proof.FrameRuns.lean ====
import proofs.«115799_j50749333570204_1_alg».proof.Proof.FrameBase
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, run once per case of its two conditionals

Every load and store goes through the whole-block rectangle of a whole staging buffer, so a load reads the buffer's
contents and the last store leaves its payload. The three cases the grid meets: the first point of a row of tiles (the
running sum is zeroed, then the tile's product added), a middle point (the product is added to what the point before
left) and the last point (the same, and the running sum is then copied into the result's buffer). -/

set_option maxHeartbeats 1000000 in
/-- First point of a row of tiles: the running sum ends at the tile's product added to zero; the result's buffer is
    handed back as it was. -/
theorem runA (c : Dev nD) (i : grid0.Coords)
    (arg2 : Memref sig .tc .vmem S512x3072 .bf16) (harg2 : arg2.IsWhole) (arg3 : Memref sig .tc .vmem S256x3072 .bf16) (harg3 : arg3.IsWhole)
    (arg4 : Memref sig .tc .vmem S256x3072 .bf16) (harg4 : arg4.IsWhole) (arg5 : Memref sig .tc .vmem S3072x256 .bf16) (harg5 : arg5.IsWhole)
    (arg6 : Memref sig .tc .vmem S512x3072 .f32) (harg6 : arg6.IsWhole) (arg7 : Memref sig .tc .vmem S512x3072 .f32) (harg7 : arg7.IsWhole)
    (hc0 : cond0_0 i) (hc1 : ¬cond0_1 i)
    (x0 : Vec F S512x3072 .bf16) (x1 x2 : Vec F S256x3072 .bf16) (x3 : Vec F S3072x256 .bf16) (xi4 : Vec F S512x3072 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4
            ∗ owns (c : Thread nD τ) arg7 fullShare (k0_pay2 x0 x1 x2 x3 (k0_pay1 (F := F)))) -∗ K ⟨⟩))
      ⊢ wp frame (wpE (defs₀ (F := F)) Variants.none c none) E (cc0__ffn_kernel i arg2 harg2 arg3 harg3 arg4 harg4 arg5 harg5 arg6 harg6 arg7 harg7) K := by
  simp only [cc0__ffn_kernel_eq_skeleton]; unfold cc0__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact HS0
  ipureintro
  refine (View.read_writes_eq_canon _ _ _ (fun y => ⟨_, List.mem_cons_self .., View.mem_set_unit_zero hz2 inb_S512x3072_S512x3072_0_0 y⟩)).trans ?_
  rw [View.canon_cons_unit_zero hz2]
  simp only [View.readAt_eq_ld, hf0, hf1, hf2, hf3]
  sl_unfold_run_names
  rw [View.readCov_unit_zero _ hz2]
  congr 1 <;> exact View.ld_unit_zero hz2 _ _

set_option maxHeartbeats 1000000 in
/-- A middle point: the running sum ends at the tile's product added to what it held; the result's buffer is handed
    back as it was. -/
theorem runB (c : Dev nD) (i : grid0.Coords)
    (arg2 : Memref sig .tc .vmem S512x3072 .bf16) (harg2 : arg2.IsWhole) (arg3 : Memref sig .tc .vmem S256x3072 .bf16) (harg3 : arg3.IsWhole)
    (arg4 : Memref sig .tc .vmem S256x3072 .bf16) (harg4 : arg4.IsWhole) (arg5 : Memref sig .tc .vmem S3072x256 .bf16) (harg5 : arg5.IsWhole)
    (arg6 : Memref sig .tc .vmem S512x3072 .f32) (harg6 : arg6.IsWhole) (arg7 : Memref sig .tc .vmem S512x3072 .f32) (harg7 : arg7.IsWhole)
    (hc0 : ¬cond0_0 i) (hc1 : ¬cond0_1 i)
    (x0 : Vec F S512x3072 .bf16) (x1 x2 : Vec F S256x3072 .bf16) (x3 : Vec F S3072x256 .bf16) (xi4 xs : Vec F S512x3072 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4
            ∗ owns (c : Thread nD τ) arg7 fullShare (k0_pay2 x0 x1 x2 x3 xs)) -∗ K ⟨⟩))
      ⊢ wp frame (wpE (defs₀ (F := F)) Variants.none c none) E (cc0__ffn_kernel i arg2 harg2 arg3 harg3 arg4 harg4 arg5 harg5 arg6 harg6 arg7 harg7) K := by
  simp only [cc0__ffn_kernel_eq_skeleton]; unfold cc0__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg5.eq_unread hf3
  obtain rfl := harg7.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact HS0
  ipureintro
  refine (View.read_writes_eq_canon _ _ _ (fun y => ⟨_, List.mem_cons_self .., View.mem_set_unit_zero hz2 inb_S512x3072_S512x3072_0_0 y⟩)).trans ?_
  rw [View.canon_cons_unit_zero hz2]
  simp only [View.readAt_eq_ld, hf0, hf1, hf2, hf3, hfs0]
  sl_unfold_run_names
  congr 1 <;> exact View.ld_unit_zero hz2 _ _

set_option maxHeartbeats 1000000 in
/-- The last point of a row of tiles: the running sum ends at the tile's product added to what it held, and the
    result's buffer ends holding the same. -/
theorem runC (c : Dev nD) (i : grid0.Coords)
    (arg2 : Memref sig .tc .vmem S512x3072 .bf16) (harg2 : arg2.IsWhole) (arg3 : Memref sig .tc .vmem S256x3072 .bf16) (harg3 : arg3.IsWhole)
    (arg4 : Memref sig .tc .vmem S256x3072 .bf16) (harg4 : arg4.IsWhole) (arg5 : Memref sig .tc .vmem S3072x256 .bf16) (harg5 : arg5.IsWhole)
    (arg6 : Memref sig .tc .vmem S512x3072 .f32) (harg6 : arg6.IsWhole) (arg7 : Memref sig .tc .vmem S512x3072 .f32) (harg7 : arg7.IsWhole)
    (hc0 : ¬cond0_0 i) (hc1 : cond0_1 i)
    (x0 : Vec F S512x3072 .bf16) (x1 x2 : Vec F S256x3072 .bf16) (x3 : Vec F S3072x256 .bf16) (xs : Vec F S512x3072 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k0_pay2 x0 x1 x2 x3 xs)
            ∗ owns (c : Thread nD τ) arg7 fullShare (k0_pay2 x0 x1 x2 x3 xs)) -∗ K ⟨⟩))
      ⊢ wp frame (wpE (defs₀ (F := F)) Variants.none c none) E (cc0__ffn_kernel i arg2 harg2 arg3 harg3 arg4 harg4 arg5 harg5 arg6 harg6 arg7 harg7) K := by
  simp only [cc0__ffn_kernel_eq_skeleton]; unfold cc0__ffn_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2; obtain rfl := harg5.eq_unread hf3
  obtain rfl := harg7.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    refine (View.read_writes_eq_canon _ _ _ (fun y => ⟨_, List.mem_cons_self .., View.mem_set_unit_zero hz2 inb_S512x3072_S512x3072_0_0 y⟩)).trans ?_
    rw [View.canon_cons_unit_zero hz2]
    sl_unfold_run_names
    rw [View.readCov_unit_zero _ hz2]
    simp only [View.readAt_eq_ld, hf0, hf1, hf2, hf3, hfs0]
    congr 1 <;> exact View.ld_unit_zero hz2 _ _
  iexists _; isplitr; swap; · iexact HS0
  ipureintro
  refine (View.read_writes_eq_canon _ _ _ (fun y => ⟨_, List.mem_cons_self .., View.mem_set_unit_zero hz2 inb_S512x3072_S512x3072_0_0 y⟩)).trans ?_
  rw [View.canon_cons_unit_zero hz2]
  simp only [View.readAt_eq_ld, hf0, hf1, hf2, hf3, hfs0]
  sl_unfold_run_names
  congr 1 <;> exact View.ld_unit_zero hz2 _ _

end Cert.KernelIdeal.Gen

end
-- ==== Proof.FrameData.lean ====
import proofs.«115799_j50749333570204_1_alg».proof.Proof.FrameRuns
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running sum, point by point -/

/-- What the body's accumulating store leaves at point `t` when the running sum held `acc`: the tile's product,
    computed from the four input blocks at the point, added to `acc`. -/
def stepAt (c : Dev nD) (t : Fin cfg0.N) (acc : Vec F S512x3072 .f32) : Vec F S512x3072 .f32 :=
  k0_pay2 (iblk m c 0 t) (iblk m c 1 t) (iblk m c 2 t) (iblk m c 3 t) acc

/-- The running sum after the body at position `n`: at the first point of each row of tiles (n ≡ 0 mod 32) the step
    from the zero fill, elsewhere the step from what the point before left. -/
def scrAt (c : Dev nD) : (n : ℕ) → n < cfg0.N → Vec F S512x3072 .f32
  | 0, hn => stepAt m c ⟨0, hn⟩ (k0_pay1 (F := F))
  | n + 1, hn =>
    if (n + 1) % 32 = 0 then stepAt m c ⟨n + 1, hn⟩ (k0_pay1 (F := F))
    else stepAt m c ⟨n + 1, hn⟩ (scrAt c n (Nat.lt_of_succ_lt hn))

theorem scrAt_first (c : Dev nD) (t : Fin cfg0.N) (h0 : t.val % 32 = 0) :
    scrAt m c t.val t.isLt = stepAt m c t (k0_pay1 (F := F)) := by
  obtain ⟨n, hn⟩ := t
  cases n with
  | zero => rfl
  | succ n => exact if_pos h0

theorem scrAt_next (c : Dev nD) (t : Fin cfg0.N) (h0 : ¬t.val % 32 = 0) :
    scrAt m c t.val t.isLt = stepAt m c t (scrAt m c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point the running sum's buffer holds anything;
    afterwards it holds what the point before left. The generator register rides along. -/
def PhiS (c : Dev nD) : (n : ℕ) → n ≤ cfg0.N → sProp 𝕄
  | 0, _ => Pipeline.ΦA spec0 c
  | n + 1, hn => iprop(iprop(owns (c : Thread nD τ) scM0_0 fullShare (scrAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scrAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (scrAt m c (n - 1) (by omega))) ∗ (∃ r, prngReg c r)) := by
  cases n with
  | zero => exact absurd rfl hz
  | succ n => rfl

/-! ## The proof data -/

/-- The arrays as the region finds them; after the body each input's buffer at its block and the result's at the
    running sum; the invariant above; nothing owed. The fused weight is read through two windows: each holds half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => scrAt m c t.val t.isLt
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = scrAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
/-- The body at any point: the inputs' buffers hold their blocks; the point's position in its row of tiles says which
    case runs; the invariant hands the body the running sum at what the point before left (anything at the very
    first point) and takes it back at this point's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 512 := lt_of_lt_of_eq t.isLt (show cfg0.N = 512 from N_0)
  by_cases h0 : t.val % 32 = 0
  · have h1 : ¬t.val % 32 = 31 := by omega
    have hc0 : cond0_0 (grid0.coords t) := (hcond0_0 t).mpr h0
    have hc1 : ¬cond0_1 (grid0.coords t) := fun h => h1 ((hcond0_1 t).mp h)
    rw [Dat.leavesExact_idle (dats m 0 c) 4 t (idleAt0_4 t hc1) (noFlush0_4 t hc1)]
    rw [scrAt_first m c t h0]; unfold stepAt
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond0_0 (grid0.coords t) := fun h => h0 ((hcond0_0 t).mp h)
    rw [PhiS_castSucc m c t, PhiS_pos m c _ _ hz]
    rw [scrAt_next m c t h0]; unfold stepAt
    by_cases h1 : t.val % 32 = 31
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4, scrAt_next m c t h0]
      unfold stepAt
      iintro ⟨⟨HS0, Hg⟩, Ho, ⟨%d0, H0⟩, ⟨%d1, H1⟩, ⟨%d2, H2⟩, ⟨%d3, H3⟩, ⟨%d4, H4⟩⟩
      iapply (runC c (grid0.coords t) _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dats m 0 c) 4 t (idleAt0_4 t hc1) (noFlush0_4 t hc1)]
      iintro ⟨⟨HS0, Hg⟩, Ho, ⟨%d0, H0⟩, ⟨%d1, H1⟩, ⟨%d2, H2⟩, ⟨%d3, H3⟩, ⟨%d4, H4⟩⟩
      iapply (runB c (grid0.coords t) _ _ _ _ _ _ _ _ _ _ _ _ hc0 hc1 (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the running sum's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 512 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

end Cert.KernelIdeal.Gen

end
-- ==== Proof.FrameLaunch.lean ====
import proofs.«115799_j50749333570204_1_alg».proof.Proof.FrameData
import Idealize.ShloMosaic.Lib.StableHlo.Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch: @main as two host stretches around the region -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- A buffer of core `c` held whole at contents `f`. -/
abbrev pt (c : Dev nD) (b : Ref sig .tc) (f : Buf (Elt F) ((c : Thread nD τ).loc b)) : sProp 𝕄 := ((c : Thread nD τ).loc b) ↦{fullShare} f

/-- What rides beside the buffers: the generator register and the core's `owes`. -/
abbrev R (c : Dev nD) : sProp 𝕄 := iprop((∃ r, prngReg c r) ∗ ∃ W, owes (c : Thread nD τ) (0 : CellTallies nD τ sig Unit) W)

/-- No host operation before the call writes an argument, the call's result or the final result. -/
theorem hostOps0_keeps (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

theorem V_main_arg0 (c : Dev nD) : V m c main_arg0 = m ((c : Thread nD τ).loc main_arg0) :=
  StableHlo.after_of_forall_not_mem (b := Proc.devRef .tc main_arg0) hostOps0 (V0 m c) (hostOps0_keeps main_arg0 (by decide))
theorem V_main_arg1 (c : Dev nD) : V m c main_arg1 = m ((c : Thread nD τ).loc main_arg1) :=
  StableHlo.after_of_forall_not_mem (b := Proc.devRef .tc main_arg1) hostOps0 (V0 m c) (hostOps0_keeps main_arg1 (by decide))
theorem V_main_arg2 (c : Dev nD) : V m c main_arg2 = m ((c : Thread nD τ).loc main_arg2) :=
  StableHlo.after_of_forall_not_mem (b := Proc.devRef .tc main_arg2) hostOps0 (V0 m c) (hostOps0_keeps main_arg2 (by decide))

/-- The windows' arrays, one by one: the fused weight is behind two windows, half a share each. -/
theorem arrays0_eq (c : Dev nD) (Fa : (w : Fin cfg0.W) → Buf (Elt F) ((cfg0.win w).arr.view.loc (c : Thread nD τ))) :
    ((dats m 0 c).arrays Fa : sProp 𝕄)
      = iprop((((c : Thread nD τ).loc main_v1) ↦{fullShare} Fa 0) ∗ (((c : Thread nD τ).loc main_v2) ↦{fullShare.left} Fa 1)
          ∗ (((c : Thread nD τ).loc main_v2) ↦{fullShare.right} Fa 2) ∗ (((c : Thread nD τ).loc main_v3) ↦{fullShare} Fa 3)
          ∗ (((c : Thread nD τ).loc main_v4) ↦{fullShare} Fa 4)) := by
  unfold Dat.arrays
  rw [bigSep_W0]
  rw [(arr_whole0 0).set_eq_univ, (arr_whole0 1).set_eq_univ, (arr_whole0 3).set_eq_univ, (arr_whole0 4).set_eq_univ]
  rfl

/-- The distinct buffers behind the windows' arrays. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop(pt c main_v1 (W main_v1) ∗ pt c main_v2 (W main_v2) ∗ pt c main_v3 (W main_v3) ∗ pt c main_v4 (W main_v4)) := by
  unfold Pipeline.arrBufs
  rw [bigSep_eq_bigSepL_of_eq [main_v1, main_v2, main_v3, main_v4] (by decide) (by decide)]
  rfl

/-- The two buffers the reshape after the call touches. -/
def S1 : Finset (DevRef τ sig) := {Proc.devRef .tc main_v4, Proc.devRef .tc main_v5}

theorem heldS1_eq (c : Dev nD) (W : Valuation τ sig (Elt F)) : (StableHlo.held (c : Thread nD τ) S1 W : sProp 𝕄)
    = iprop(pt c main_v4 (W (Proc.devRef .tc main_v4)) ∗ pt c main_v5 (W (Proc.devRef .tc main_v5))) := by
  unfold StableHlo.held S1
  rw [bigSep_eq_bigSepL_of_eq [Proc.devRef .tc main_v4, Proc.devRef .tc main_v5] (by decide) (by decide)]
  rfl

/-- The buffers as the region leaves them: the call's result at what the write-backs made of it. -/
abbrev V2 (c : Dev nD) : Valuation τ sig (Elt F) :=
  Function.update (V1 m c) (Proc.devRef .tc main_v4) ((dats m 0 c).arrAt 4 cfg0.N)
/-- And after the reshape that follows. -/
abbrev V3 (c : Dev nD) : Valuation τ sig (Elt F) := StableHlo.after hostOps1 (V2 m c)

theorem V2_v4 (c : Dev nD) : V2 m c (Proc.devRef .tc main_v4) = (dats m 0 c).arrAt 4 cfg0.N := Function.update_self ..
theorem V2_v5 (c : Dev nD) : V2 m c (Proc.devRef .tc main_v5) = V m c main_v5 := Function.update_of_ne (by decide) ..

/-- The arguments, as they bypass the region. -/
abbrev Args (c : Dev nD) : sProp 𝕄 :=
  iprop(pt c main_arg0 (V m c main_arg0) ∗ pt c main_arg1 (V m c main_arg1) ∗ pt c main_arg2 (V m c main_arg2))

/-- THE FIRST HOST STRETCH: the reshape and the three changes of format, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V0 m) R

theorem hostOps1_sub_S1 : ∀ op ∈ (hostOps1 (F := F)), op.bufs ⊆ S1 := fun op h => by
  simp only [List.mem_singleton] at h; subst h
  show ({Proc.devRef .tc main_v4, Proc.devRef .tc main_v5} : Finset (DevRef τ sig)) ⊆ S1
  exact Finset.Subset.refl _

/-- THE LAST HOST STRETCH: the reshape of the call's result. -/
def seg1 : Pipeline.HostSeg (Name := ℕ) (U := UR sig nD τ) (pcfgs (F := F)) defs₀ 𝒱₀ L lv :=
  Pipeline.HostSeg.ofOps _ _ _ _ _ S1 hostOps1 hostOps1_sub_S1
    (by intro _ h; (repeat (cases h with | head => rfl | tail _ h => ?_)); exact nomatch h) (V2 m)
    (fun c => iprop(Args m c ∗ ∃ W, owes (c : Thread nD τ) (0 : CellTallies nD τ sig Unit) W))

set_option backward.isDefEq.respectTransparency.types false in
/-- THE REGION: entered from what the first stretch left — the windows' arrays into the pipeline (the fused weight's
    buffer split between its two windows), the generator register into the invariant, the arguments and the final
    result's buffer bypassing —, left with the call's result at its final contents. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) S1 (V2 m c) ∗ (Args m c ∗ ∃ W, owes (c : Thread nD τ) (0 : CellTallies nD τ sig Unit) W))
  X c := iprop(∃ r, prngReg c r)
  Y c := iprop(∃ r, prngReg c r)
  Z c := iprop(Args m c ∗ pt c main_v5 (V m c main_v5))
  hentry c := by
    rw [show StableHlo.held (c : Thread nD τ) (Pipeline.ucRefs τ sig) (V1 m c) = unscopedBufs c (V m c) from (Pipeline.unscopedBufs_held c _).symm,
      Pipeline.ownSems0_none, Pipeline.unscopedBufs_split₀ cfgs 0 winFacts₀0.arr_unscoped c (V m c), unscopedRest0_eq, arrBufs0_eq, arrays0_eq]
    iintro ⟨⟨⟨⟨Hv1, Hv2, Hv3, Hv4⟩, ⟨Ha0, Ha1, Ha2, -, Hv5⟩⟩, ⟨Hg, HO⟩⟩, -, -⟩
    ihave Hv2' := (pointsTo_share (PosShare.mem_left_op_right fullShare)).1 $$ Hv2
    icases Hv2' with ⟨Hv2l, Hv2r⟩
    imodintro
    isplitl [Hv1 Hv2l Hv2r Hv3 Hv4]
    · isplitl [Hv1]; · iexact Hv1
      isplitl [Hv2l]; · iexact Hv2l
      isplitl [Hv2r]; · iexact Hv2r
      isplitl [Hv3]; · iexact Hv3
      iexact Hv4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    isplitl [Ha0 Ha1 Ha2]
    · isplitl [Ha0]; · iexact Ha0
      isplitl [Ha1]; · iexact Ha1
      iexact Ha2
    iexact Hv5
  hin c := (show _ ⊢ Pipeline.ΦA spec0 c from by
      unfold Pipeline.ΦA; iintro ⟨Hp, -, Hr⟩
      isplitl [Hr] <;> iassumption).trans (hin m c)
  hout c := (hout m c).trans (by
      rw [Pipeline.ownSems0_none]; unfold Pipeline.ΦA
      iintro ⟨Hr, Hp⟩
      isplitl [Hp]; · iexact Hp
      isplitr; · iempintro
      iexact Hr)
  hexit c := by
    rw [arrays0_eq, heldS1_eq, V2_v4, V2_v5]
    iintro ⟨⟨-, -, -, -, Hv4⟩, HO, -, ⟨HA, Hv5⟩⟩
    imodintro
    isplitl [Hv4 Hv5]
    · isplitl [Hv4] <;> iassumption
    isplitl [HA]; · iexact HA
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The last thread state: the reshaped result and the arguments. -/
abbrev Tₙ (c : Dev nD) : sProp 𝕄 := iprop(StableHlo.held (c : Thread nD τ) S1 (V3 m c) ∗ Args m c)

set_option backward.isDefEq.respectTransparency.types false in
/-- THE RUN, at any float values: from any memory with zero counters every weakly fair execution of @main terminates,
    nothing faulting, and every final state has the final result's buffer at the reshape of what the write-backs made
    of the call's result, and the three arguments as launched. -/
theorem run_main : θ_run defs (onTc (τ := τ) (main (F := F))) (s₀ m ρ) (fun r => ∀ c : Dev nD,
    r.2.mem ((c.tc : Thread nD τ).loc main_v5) = V3 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun c => by
      show iprop(StableHlo.held (c : Thread nD τ) S1 (V3 m c) ∗ (Args m c ∗ ∃ W, owes (c : Thread nD τ) (0 : CellTallies nD τ sig Unit) W))
        ⊢ iprop(Tₙ m c ∗ ∃ W, owes (c : Thread nD τ) (0 : CellTallies nD τ sig Unit) W)
      iintro ⟨Hh, HA, HO⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, Hg, -⟩, -⟩
      imodintro
      isplitl [Hh]; · iexact Hh
      isplitl [Hg]; · iexists _; iexact Hg
      iexists ∅; iexact HO)
    (QY := fun c s => s.mem ((c : Thread nD τ).loc main_v5) = V3 m c (Proc.devRef .tc main_v5)
      ∧ s.mem ((c : Thread nD τ).loc main_arg0) = V m c main_arg0 ∧ s.mem ((c : Thread nD τ).loc main_arg1) = V m c main_arg1
      ∧ s.mem ((c : Thread nD τ).loc main_arg2) = V m c main_arg2)
    (hfin := fun c s' => by
      dsimp only [Tₙ]; rw [heldS1_eq]
      iintro ⟨⟨⟨-, H5⟩, H0, H1, H2⟩, HSI⟩
      icombine HSI H5 gives %h5
      icombine HSI H0 gives %h0
      icombine HSI H1 gives %h1
      icombine HSI H2 gives %h2
      imodintro
      isplitr; · ipureintro; exact ⟨Buf.eq_of_forall_mem_univ h5, Buf.eq_of_forall_mem_univ h0, Buf.eq_of_forall_mem_univ h1, Buf.eq_of_forall_mem_univ h2⟩
      iexact HSI)
    (hQ := fun s h c => by
      obtain ⟨h5, h0, h1, h2⟩ := h c
      rw [V_main_arg0] at h0; rw [V_main_arg1] at h1; rw [V_main_arg2] at h2
      exact ⟨h5, h0, h1, h2⟩)

end Cert.KernelIdeal.Gen

end
-- ==== Proof.Spec.lean ====
/-
  The feed-forward block as one function of its three argument arrays, over the extended reals.

  For a row `xr` of the input (3072 numbers) and the fused weight `W13` (16384 rows of 3072):
    proj xr W13 h   = Σ_k xr k · W13[h,k]                       (one entry of the gate / up projection)
    hid  xr W13 h   = clip (silu (proj (8192+h)) · proj h)       for h < 8192, silu u = u · 1/(1+e^(-u)),
                                                                 clip to [-65504, 65504]
    outRow … d      = Σ_{h<8192} hid h · W2[d,h]                 (the down projection)
  and `G X W13 W2` at (b,s,d) is `outRow` of the row X[b,s,·].

  The sum over the 8192 hidden units splits into 32 tiles of 256 (`tile` below); adding the tiles one after the other
  from zero gives `outRow` after the 32nd: addition of extended reals is commutative and associative, so no finiteness
  is needed.
-/
import Idealize.ShloMosaic.PureOps.Ideal
import Idealize.ShloMosaic.PureOps.Ideal.Laws
import Idealize.ShloMosaic.Lib.ValueIdx

noncomputable section

namespace Cert.Ffn

open Idealize.ShloMosaic Idealize.ShloMosaic.ValueIdx

/-- The clamp's bounds, as the programs spell them. -/
def lo : EReal := Ideal.ofBits .f32 0xC77FE000#32
def hi : EReal := Ideal.ofBits .f32 0x477FE000#32

/-- `clip (silu u · v)`. -/
def gate (u v : EReal) : EReal := min hi (max lo (u * Ideal.logistic u * v))

abbrev Arr3 := (⟨3, ![2, 4096, 3072]⟩ : Shape).Idx → EReal
abbrev Arr13 := (⟨2, ![16384, 3072]⟩ : Shape).Idx → EReal
abbrev Arr2 := (⟨2, ![3072, 8192]⟩ : Shape).Idx → EReal

/-- One entry of the fused projection: row `xr` against row `h` of `W13`. -/
def proj (xr : Fin 3072 → EReal) (W13 : Arr13) (h : Fin 16384) : EReal := ∑ k : Fin 3072, xr k * W13 (ix2 h k)

/-- Row `h` of the first half (the multiplied branch) and of the second half (the branch under silu). -/
def loRow (h : Fin 8192) : Fin 16384 := ⟨h.val, by omega⟩
def hiRow (h : Fin 8192) : Fin 16384 := ⟨8192 + h.val, by omega⟩

/-- The gated hidden unit `h` of a row. -/
def hid (xr : Fin 3072 → EReal) (W13 : Arr13) (h : Fin 8192) : EReal := gate (proj xr W13 (hiRow h)) (proj xr W13 (loRow h))

/-- One entry of the down projection of a row. -/
def outRow (xr : Fin 3072 → EReal) (W13 : Arr13) (W2 : Arr2) (d : Fin 3072) : EReal := ∑ h : Fin 8192, hid xr W13 h * W2 (ix2 d h)

/-- The whole result. -/
def G (X : Arr3) (W13 : Arr13) (W2 : Arr2) : Arr3 := fun i => outRow (fun k => X (ix3 (i 0) (i 1) k)) W13 W2 (i 2)

/-- Hidden unit `256·j + h` (tile `j`, lane `h`). -/
def tileIdx (j : Fin 32) (h : Fin 256) : Fin 8192 := ⟨256 * j.val + h.val, by omega⟩

/-- Tile `j`'s contribution to an entry of the down projection. -/
def tile (xr : Fin 3072 → EReal) (W13 : Arr13) (W2 : Arr2) (d : Fin 3072) (j : Fin 32) : EReal :=
  ∑ h : Fin 256, hid xr W13 (tileIdx j h) * W2 (ix2 d (tileIdx j h))

end Cert.Ffn

end
-- ==== Proof.TileMath.lean ====
/-
  The mathematics of one step of the tiled feed-forward kernel, and of the sum of its 32 steps.

  (1) The step's two stored values read at an index, at the ideal values: the zero fill is `0`; the accumulating
      store at (r, d) is the running sum there plus Σ_{h<256} gate (Σ_k x[r,k]·w_hi[h,k]) (Σ_k x[r,k]·w_lo[h,k]) · w2[d,h],
      where the three matrix products contract one axis each, the transposes swap the two coordinates, and the
      narrowing to bf16 is the identity on extended reals.
  (2) The sum over the 8192 hidden units splits into 32 tiles of 256 (hidden unit 256·j + h is lane h of tile j),
      and the left fold from 0 over the tiles is that sum.
-/
import proofs.«115799_j50749333570204_1_alg».proof.Proof.Gen.KernelIdeal.Skeleton
import proofs.«115799_j50749333570204_1_alg».proof.Proof.Spec
import Idealize.ShloMosaic.Lib.ValueIdx
import Idealize.ShloMosaic.Lib.Pipeline.Value
import Idealize.ShloMosaic.PureOps.Ideal.Laws

noncomputable section

namespace Cert.Ffn.Tile

open Idealize.ShloMosaic Idealize.ShloMosaic.ValueIdx Cert.KernelIdeal Cert.KernelIdeal.Gen
open scoped BigOperators

/-- The zero fill reads the extended real `0` everywhere. -/
theorem pay1_apply (r : Fin 512) (d : Fin 3072) : Cert.KernelIdeal.Gen.k0_pay1 (F := Ideal) (ix2 r d) = 0 := by
  unfold Cert.KernelIdeal.Gen.k0_pay1
  rw [shapeCast_self]
  exact Ideal.ofBits_zero_f32

/-- Coordinate 0 of the left operand's index of the [512,3072] x [3072,256] product is the output row. -/
theorem lhsA_0 (i : S512x256.Idx) (q : dot_S512x3072_S3072x256_S512x256_1_0_0_1_n_n.contr.Idx) :
    (dot_S512x3072_S3072x256_S512x256_1_0_0_1_n_n.lhsIdx i q 0).val = (i 0).val := by
  unfold DotDims.lhsIdx
  rw [dif_neg (show ¬(0 : Fin S512x3072.rank) ∈ dot_S512x3072_S3072x256_S512x256_1_0_0_1_n_n.lhsBatch by decide), dif_pos (show (0 : Fin S512x3072.rank) ∈ dot_S512x3072_S3072x256_S512x256_1_0_0_1_n_n.lhsNonContracting by decide)]
  rfl
theorem rhsA_1 (i : S512x256.Idx) (q : dot_S512x3072_S3072x256_S512x256_1_0_0_1_n_n.contr.Idx) :
    (dot_S512x3072_S3072x256_S512x256_1_0_0_1_n_n.rhsIdx i q 1).val = (i 1).val := by
  unfold DotDims.rhsIdx
  rw [dif_neg (show ¬(1 : Fin S3072x256.rank) ∈ dot_S512x3072_S3072x256_S512x256_1_0_0_1_n_n.rhsBatch by decide), dif_pos (show (1 : Fin S3072x256.rank) ∈ dot_S512x3072_S3072x256_S512x256_1_0_0_1_n_n.rhsNonContracting by decide)]
  rfl

/-- The [512,3072] x [3072,256] product into a zero accumulator, read at (r, h). -/
theorem mmA_apply (a : FVec Ideal S512x3072 .bf16) (b : FVec Ideal S3072x256 .bf16) (r : Fin 512) (h : Fin 256) :
    matmul dot_S512x3072_S3072x256_S512x256_1_0_0_1_n_n none a b (constant (F := Ideal) S512x256 .f32 0x00000000#32) (ix2 r h)
      = ∑ k : Fin 3072, a (ix2 r k) * b (ix2 k h) := by
  simp only [matmul]
  rw [Ideal.matmul_constant_zero_apply, ← Equiv.sum_comp (contrEquiv1 dot_S512x3072_S3072x256_S512x256_1_0_0_1_n_n 3072 rfl rfl).symm]
  refine Finset.sum_congr rfl fun k _ => ?_
  have hk := contrEquiv1_symm_val dot_S512x3072_S3072x256_S512x256_1_0_0_1_n_n 3072 rfl rfl k
  have el : dot_S512x3072_S3072x256_S512x256_1_0_0_1_n_n.lhsIdx (ix2 r h) ((contrEquiv1 dot_S512x3072_S3072x256_S512x256_1_0_0_1_n_n 3072 rfl rfl).symm k) = ix2 r k := funext fun a => Fin.ext (by
    match a with
    | ⟨0, _⟩ => exact lhsA_0 _ _
    | ⟨1, _⟩ => exact (dot_S512x3072_S3072x256_S512x256_1_0_0_1_n_n.lhsIdx_val_of_single rfl _ _).trans hk)
  have er : dot_S512x3072_S3072x256_S512x256_1_0_0_1_n_n.rhsIdx (ix2 r h) ((contrEquiv1 dot_S512x3072_S3072x256_S512x256_1_0_0_1_n_n 3072 rfl rfl).symm k) = ix2 k h := funext fun a => Fin.ext (by
    match a with
    | ⟨0, _⟩ => exact (dot_S512x3072_S3072x256_S512x256_1_0_0_1_n_n.rhsIdx_val_of_single rfl _ _).trans hk
    | ⟨1, _⟩ => exact rhsA_1 _ _)
  rw [el, er]

theorem lhsB_0 (i : S512x3072.Idx) (q : dot_S512x256_S256x3072_S512x3072_1_0_0_1_n_n.contr.Idx) :
    (dot_S512x256_S256x3072_S512x3072_1_0_0_1_n_n.lhsIdx i q 0).val = (i 0).val := by
  unfold DotDims.lhsIdx
  rw [dif_neg (show ¬(0 : Fin S512x256.rank) ∈ dot_S512x256_S256x3072_S512x3072_1_0_0_1_n_n.lhsBatch by decide), dif_pos (show (0 : Fin S512x256.rank) ∈ dot_S512x256_S256x3072_S512x3072_1_0_0_1_n_n.lhsNonContracting by decide)]
  rfl
theorem rhsB_1 (i : S512x3072.Idx) (q : dot_S512x256_S256x3072_S512x3072_1_0_0_1_n_n.contr.Idx) :
    (dot_S512x256_S256x3072_S512x3072_1_0_0_1_n_n.rhsIdx i q 1).val = (i 1).val := by
  unfold DotDims.rhsIdx
  rw [dif_neg (show ¬(1 : Fin S256x3072.rank) ∈ dot_S512x256_S256x3072_S512x3072_1_0_0_1_n_n.rhsBatch by decide), dif_pos (show (1 : Fin S256x3072.rank) ∈ dot_S512x256_S256x3072_S512x3072_1_0_0_1_n_n.rhsNonContracting by decide)]
  rfl

/-- The [512,256] x [256,3072] product into a zero accumulator, read at (r, d). -/
theorem mmB_apply (a : FVec Ideal S512x256 .bf16) (b : FVec Ideal S256x3072 .bf16) (r : Fin 512) (d : Fin 3072) :
    matmul dot_S512x256_S256x3072_S512x3072_1_0_0_1_n_n none a b (constant (F := Ideal) S512x3072 .f32 0x00000000#32) (ix2 r d)
      = ∑ h : Fin 256, a (ix2 r h) * b (ix2 h d) := by
  simp only [matmul]
  rw [Ideal.matmul_constant_zero_apply, ← Equiv.sum_comp (contrEquiv1 dot_S512x256_S256x3072_S512x3072_1_0_0_1_n_n 256 rfl rfl).symm]
  refine Finset.sum_congr rfl fun k _ => ?_
  have hk := contrEquiv1_symm_val dot_S512x256_S256x3072_S512x3072_1_0_0_1_n_n 256 rfl rfl k
  have el : dot_S512x256_S256x3072_S512x3072_1_0_0_1_n_n.lhsIdx (ix2 r d) ((contrEquiv1 dot_S512x256_S256x3072_S512x3072_1_0_0_1_n_n 256 rfl rfl).symm k) = ix2 r k := funext fun a => Fin.ext (by
    match a with
    | ⟨0, _⟩ => exact lhsB_0 _ _
    | ⟨1, _⟩ => exact (dot_S512x256_S256x3072_S512x3072_1_0_0_1_n_n.lhsIdx_val_of_single rfl _ _).trans hk)
  have er : dot_S512x256_S256x3072_S512x3072_1_0_0_1_n_n.rhsIdx (ix2 r d) ((contrEquiv1 dot_S512x256_S256x3072_S512x3072_1_0_0_1_n_n 256 rfl rfl).symm k) = ix2 k d := funext fun a => Fin.ext (by
    match a with
    | ⟨0, _⟩ => exact (dot_S512x256_S256x3072_S512x3072_1_0_0_1_n_n.rhsIdx_val_of_single rfl _ _).trans hk
    | ⟨1, _⟩ => exact rhsB_1 _ _)
  rw [el, er]

/-- The transpose of a [256,3072] block read at (k, h) is the block at (h, k). -/
theorem trA_apply (x : FVec Ideal S256x3072 .bf16) (k : Fin 3072) (h : Fin 256) :
    transpose S3072x256 [1, 0] x transposes_S256x3072_p1_0_S3072x256 (ix2 k h) = x (ix2 h k) :=
  transpose_apply [1, 0] x transposes_S256x3072_p1_0_S3072x256 (ix2 k h) (ix2 h k) (fun b => match b with
    | ⟨0, _⟩ => rfl
    | ⟨1, _⟩ => rfl)

/-- The transpose of a [3072,256] block read at (h, d) is the block at (d, h). -/
theorem trB_apply (x : FVec Ideal S3072x256 .bf16) (h : Fin 256) (d : Fin 3072) :
    transpose S256x3072 [1, 0] x transposes_S3072x256_p1_0_S256x3072 (ix2 h d) = x (ix2 d h) :=
  transpose_apply [1, 0] x transposes_S3072x256_p1_0_S256x3072 (ix2 h d) (ix2 d h) (fun b => match b with
    | ⟨0, _⟩ => rfl
    | ⟨1, _⟩ => rfl)

/-- A block of input rows against the transpose of a block of weight rows, read at (r, h): row `r` of the input
    against row `h` of the weight block. -/
theorem projA_apply (a : FVec Ideal S512x3072 .bf16) (w : FVec Ideal S256x3072 .bf16) (r : Fin 512) (h : Fin 256) :
    matmul dot_S512x3072_S3072x256_S512x256_1_0_0_1_n_n none a (transpose S3072x256 [1, 0] w transposes_S256x3072_p1_0_S3072x256)
        (constant (F := Ideal) S512x256 .f32 0x00000000#32) (ix2 r h)
      = ∑ k : Fin 3072, a (ix2 r k) * w (ix2 h k) :=
  (mmA_apply a _ r h).trans (Finset.sum_congr rfl fun k _ => congrArg (a (ix2 r k) * ·) (trA_apply w k h))

/-- The accumulating step read at (r, d): the running sum there plus, over the 256 hidden units of the tile, the gated
    unit (the second half's row under silu, times the first half's row, clipped) times the down-projection weight. -/
theorem pay2_apply (v3 : Vec Ideal S512x3072 .bf16) (v5 v7 : Vec Ideal S256x3072 .bf16) (v21 : Vec Ideal S3072x256 .bf16)
    (v23 : Vec Ideal S512x3072 .f32) (r : Fin 512) (d : Fin 3072) :
    Cert.KernelIdeal.Gen.k0_pay2 (F := Ideal) v3 v5 v7 v21 v23 (ix2 r d)
      = v23 (ix2 r d) + ∑ h : Fin 256, Cert.Ffn.gate (∑ k : Fin 3072, v3 (ix2 r k) * v7 (ix2 h k)) (∑ k : Fin 3072, v3 (ix2 r k) * v5 (ix2 h k)) * v21 (ix2 d h) := by
  unfold Cert.KernelIdeal.Gen.k0_pay2
  simp only [shapeCast_self]
  refine (addf_apply _ _ _).trans ?_
  refine congrArg (v23 (ix2 r d) + ·) ?_
  refine (mmB_apply _ _ r d).trans ?_
  refine Finset.sum_congr rfl fun h _ => ?_
  rw [trB_apply]
  refine congrArg (· * v21 (ix2 d h)) ?_
  refine (truncf_apply (ψ := .bf16) _ bitsLt_bf16_f32 (ix2 r h)).trans ?_
  refine (minimumf_apply _ _ _).trans ?_
  unfold Cert.Ffn.gate
  refine congrArg (min Cert.Ffn.hi) ?_
  refine (maximumf_apply _ _ _).trans ?_
  refine congrArg (max Cert.Ffn.lo) ?_
  refine (mulf_apply _ _ _).trans ?_
  refine congrArg₂ (· * ·) ?_ (projA_apply v3 v5 r h)
  refine (mulf_apply _ _ _).trans ?_
  exact congrArg (fun u : EReal => u * Ideal.logistic u) (projA_apply v3 v7 r h)

/-! ## The sum over the 8192 hidden units as 32 tiles of 256 -/

/-- Hidden unit `256·j + h` from the pair (tile `j`, lane `h`): a bijection of `Fin 32 × Fin 256` with `Fin 8192`. -/
def tileEquiv : Fin 32 × Fin 256 ≃ Fin 8192 := (finProdFinEquiv : Fin 32 × Fin 256 ≃ Fin (32 * 256))

theorem tileEquiv_apply (j : Fin 32) (h : Fin 256) : tileEquiv (j, h) = Cert.Ffn.tileIdx j h :=
  Fin.ext (by show h.val + 256 * j.val = 256 * j.val + h.val; omega)

/-- An entry of the down projection is the sum of its 32 tiles. -/
theorem outRow_eq_sum_tiles (xr : Fin 3072 → EReal) (W13 : Cert.Ffn.Arr13) (W2 : Cert.Ffn.Arr2) (d : Fin 3072) :
    Cert.Ffn.outRow xr W13 W2 d = ∑ j : Fin 32, Cert.Ffn.tile xr W13 W2 d j := by
  unfold Cert.Ffn.outRow Cert.Ffn.tile
  rw [← Equiv.sum_comp tileEquiv, Fintype.sum_prod_type]
  refine Finset.sum_congr rfl fun j _ => Finset.sum_congr rfl fun h _ => ?_
  rw [tileEquiv_apply]

/-- The running sum of the first `n` tiles, as the kernel folds it: from `0`, adding tile `n` at step `n`. -/
def accum (xr : Fin 3072 → EReal) (W13 : Cert.Ffn.Arr13) (W2 : Cert.Ffn.Arr2) (d : Fin 3072) : Nat → EReal
  | 0 => 0
  | n + 1 => accum xr W13 W2 d n + (if h : n < 32 then Cert.Ffn.tile xr W13 W2 d ⟨n, h⟩ else 0)

theorem accum_zero (xr : Fin 3072 → EReal) (W13 : Cert.Ffn.Arr13) (W2 : Cert.Ffn.Arr2) (d : Fin 3072) :
    accum xr W13 W2 d 0 = 0 := rfl

theorem accum_succ (xr : Fin 3072 → EReal) (W13 : Cert.Ffn.Arr13) (W2 : Cert.Ffn.Arr2) (d : Fin 3072) (n : Nat) :
    accum xr W13 W2 d (n + 1) = accum xr W13 W2 d n + (if h : n < 32 then Cert.Ffn.tile xr W13 W2 d ⟨n, h⟩ else 0) := rfl

/-- The left fold is the sum over the range. -/
theorem accum_eq_sum_range (xr : Fin 3072 → EReal) (W13 : Cert.Ffn.Arr13) (W2 : Cert.Ffn.Arr2) (d : Fin 3072) (n : Nat) :
    accum xr W13 W2 d n = ∑ i ∈ Finset.range n, (if h : i < 32 then Cert.Ffn.tile xr W13 W2 d ⟨i, h⟩ else 0) := by
  induction n with
  | zero => rfl
  | succ n ih => rw [accum_succ, ih, Finset.sum_range_succ]

/-- After all 32 steps the running sum is the entry of the down projection. -/
theorem accum_32 (xr : Fin 3072 → EReal) (W13 : Cert.Ffn.Arr13) (W2 : Cert.Ffn.Arr2) (d : Fin 3072) :
    accum xr W13 W2 d 32 = Cert.Ffn.outRow xr W13 W2 d := by
  rw [accum_eq_sum_range, outRow_eq_sum_tiles,
    ← Fin.sum_univ_eq_sum_range (fun i => if h : i < 32 then Cert.Ffn.tile xr W13 W2 d ⟨i, h⟩ else 0) 32]
  exact Finset.sum_congr rfl fun j _ => dif_pos j.isLt

end Cert.Ffn.Tile

end
-- ==== Proof.KernelFun.lean ====
/-
  The tiled feed-forward kernel as a function of its arrays, over the extended reals.

  The 8192 rows of the flattened input are cut into 16 blocks of 512; the 8192 hidden units into 32 tiles of 256.
  For a block i of rows the running sum after step n is accAt … i n: step 0 adds tile 0 to the zero fill, step n + 1
  adds tile n + 1 to the running sum of step n. Read at (r, d), the running sum after step n is the left fold of the
  first n + 1 tiles of the down projection of row 512 i + r, so after step 31 it is the whole entry outRow … d.
  Before the steps the input is flattened, (b, s, k) ↦ (4096 b + s, k), and narrowed (the identity on extended reals);
  after them the result is unflattened. Composed, the unflattened result is the specification G of the three arrays.
-/
import proofs.«115799_j50749333570204_1_alg».proof.Proof.TileMath
import proofs.«115799_j50749333570204_1_alg».proof.Proof.Spec
import Idealize.ShloMosaic.Lib.ValueIdx
import Idealize.ShloMosaic.Lib.Pipeline.Value

noncomputable section

namespace Cert.Ffn.Kfun

open Idealize.ShloMosaic Idealize.ShloMosaic.ValueIdx Cert.KernelIdeal Cert.KernelIdeal.Gen Cert.Ffn
open scoped BigOperators

/-- Row 512 i + r of the flattened input: row r of block i. -/
def rowIdx (i : Fin 16) (r : Fin 512) : Fin 8192 := ⟨512 * i.val + r.val, by omega⟩

/-- Block i of the flattened input's rows. -/
def xBlk (X2 : S8192x3072.Idx → EReal) (i : Fin 16) : S512x3072.Idx → EReal := fun y => X2 (ix2 (rowIdx i (y 0)) (y 1))

/-- Rows 256 j + h of the first half of the fused weight. -/
def w3Blk (W : S16384x3072.Idx → EReal) (j : Fin 32) : S256x3072.Idx → EReal := fun y => W (ix2 (loRow (tileIdx j (y 0))) (y 1))

/-- Rows 8192 + 256 j + h of the fused weight. -/
def w1Blk (W : S16384x3072.Idx → EReal) (j : Fin 32) : S256x3072.Idx → EReal := fun y => W (ix2 (hiRow (tileIdx j (y 0))) (y 1))

/-- Columns 256 j + h of the down-projection weight. -/
def w2Blk (W2 : S3072x8192.Idx → EReal) (j : Fin 32) : S3072x256.Idx → EReal := fun y => W2 (ix2 (y 0) (tileIdx j (y 1)))

/-- The running sum of block i after step n. -/
def accAt (X2 : S8192x3072.Idx → EReal) (W : S16384x3072.Idx → EReal) (W2 : S3072x8192.Idx → EReal) (i : Fin 16) :
    Nat → (S512x3072.Idx → EReal)
  | 0 => Cert.KernelIdeal.Gen.k0_pay2 (F := Ideal) (xBlk X2 i) (w3Blk W 0) (w1Blk W 0) (w2Blk W2 0) (Cert.KernelIdeal.Gen.k0_pay1 (F := Ideal))
  | n+1 => Cert.KernelIdeal.Gen.k0_pay2 (F := Ideal) (xBlk X2 i) (w3Blk W ⟨(n+1) % 32, Nat.mod_lt _ (by decide)⟩) (w1Blk W ⟨(n+1) % 32, Nat.mod_lt _ (by decide)⟩) (w2Blk W2 ⟨(n+1) % 32, Nat.mod_lt _ (by decide)⟩) (accAt X2 W W2 i n)

theorem accAt_zero (X2 : S8192x3072.Idx → EReal) (W : S16384x3072.Idx → EReal) (W2 : S3072x8192.Idx → EReal) (i : Fin 16) :
    accAt X2 W W2 i 0 = Cert.KernelIdeal.Gen.k0_pay2 (F := Ideal) (xBlk X2 i) (w3Blk W 0) (w1Blk W 0) (w2Blk W2 0) (Cert.KernelIdeal.Gen.k0_pay1 (F := Ideal)) := rfl

theorem accAt_succ (X2 : S8192x3072.Idx → EReal) (W : S16384x3072.Idx → EReal) (W2 : S3072x8192.Idx → EReal) (i : Fin 16) (n : Nat) :
    accAt X2 W W2 i (n + 1) = Cert.KernelIdeal.Gen.k0_pay2 (F := Ideal) (xBlk X2 i) (w3Blk W ⟨(n+1) % 32, Nat.mod_lt _ (by decide)⟩) (w1Blk W ⟨(n+1) % 32, Nat.mod_lt _ (by decide)⟩) (w2Blk W2 ⟨(n+1) % 32, Nat.mod_lt _ (by decide)⟩) (accAt X2 W W2 i n) := rfl

/-! ## (a) The 32 steps -/

/-- One step on the blocks of tile j, read at (r, d): the running sum there plus tile j of the down projection of
    row 512 i + r. -/
theorem step_apply (X2 : S8192x3072.Idx → EReal) (W : S16384x3072.Idx → EReal) (W2 : S3072x8192.Idx → EReal) (i : Fin 16)
    (j : Fin 32) (acc : S512x3072.Idx → EReal) (r : Fin 512) (d : Fin 3072) :
    Cert.KernelIdeal.Gen.k0_pay2 (F := Ideal) (xBlk X2 i) (w3Blk W j) (w1Blk W j) (w2Blk W2 j) acc (ix2 r d)
      = acc (ix2 r d) + tile (fun k => X2 (ix2 (rowIdx i r) k)) W W2 d j := by
  rw [Tile.pay2_apply]
  rfl

/-- The running sum after step n is the left fold of the first n + 1 tiles. -/
theorem accAt_eq_accum (X2 : S8192x3072.Idx → EReal) (W : S16384x3072.Idx → EReal) (W2 : S3072x8192.Idx → EReal) (i : Fin 16)
    (r : Fin 512) (d : Fin 3072) (n : Nat) (hn : n < 32) :
    accAt X2 W W2 i n (ix2 r d) = Tile.accum (fun k => X2 (ix2 (rowIdx i r) k)) W W2 d (n + 1) := by
  induction n with
  | zero =>
    rw [accAt_zero, step_apply, Tile.pay1_apply, Tile.accum_succ, Tile.accum_zero, dif_pos (by decide : 0 < 32)]
    rfl
  | succ n ih =>
    have hj : (⟨(n + 1) % 32, Nat.mod_lt _ (by decide)⟩ : Fin 32) = ⟨n + 1, hn⟩ := Fin.ext (Nat.mod_eq_of_lt hn)
    rw [accAt_succ, step_apply, ih (by omega), Tile.accum_succ _ _ _ _ (n + 1), dif_pos hn, hj]

/-- After the last step the running sum is the entry of the down projection. -/
theorem accAt_31 (X2 : S8192x3072.Idx → EReal) (W : S16384x3072.Idx → EReal) (W2 : S3072x8192.Idx → EReal) (i : Fin 16)
    (r : Fin 512) (d : Fin 3072) :
    accAt X2 W W2 i 31 (ix2 r d) = outRow (fun k => X2 (ix2 (rowIdx i r) k)) W W2 d :=
  (accAt_eq_accum X2 W W2 i r d 31 (by decide)).trans (Tile.accum_32 _ W W2 d)

/-! ## (b) The operations before and after the steps, read at an index -/

/-- The flattened and narrowed input at (mm, k) is the input at (mm / 4096, mm % 4096, k): flattening keeps the row-major
    position, and narrowing is the identity on extended reals. -/
theorem inX (X : FVec Ideal S2x4096x3072 .f32) (mm : Fin 8192) (k : Fin 3072) :
    (truncf .bf16 (shapeCast S8192x3072 X shapeCasts_S2x4096x3072_S8192x3072) bitsLt_bf16_f32 : FVec Ideal S8192x3072 .bf16) (ix2 mm k)
      = X (ix3 (⟨mm.val / 4096, by omega⟩ : Fin 2) (⟨mm.val % 4096, by omega⟩ : Fin 4096) k) := by
  refine (truncf_apply (ψ := .bf16) _ bitsLt_bf16_f32 (ix2 mm k)).trans ?_
  refine shapeCast_apply X shapeCasts_S2x4096x3072_S8192x3072 (ix2 mm k) _ ?_
  rw [Shape.rowMajor_val_three, Shape.rowMajor_val_two]
  show (mm.val / 4096 * 4096 + mm.val % 4096) * 3072 + k.val = mm.val * 3072 + k.val
  omega

/-- The same at row 4096 b + s: the input at (b, s, k). -/
theorem inX_row (X : FVec Ideal S2x4096x3072 .f32) (b : Fin 2) (s : Fin 4096) (k : Fin 3072) :
    (truncf .bf16 (shapeCast S8192x3072 X shapeCasts_S2x4096x3072_S8192x3072) bitsLt_bf16_f32 : FVec Ideal S8192x3072 .bf16)
        (ix2 (⟨4096 * b.val + s.val, by omega⟩ : Fin 8192) k)
      = X (ix3 b s k) := by
  refine (truncf_apply (ψ := .bf16) _ bitsLt_bf16_f32 _).trans ?_
  refine shapeCast_apply X shapeCasts_S2x4096x3072_S8192x3072 _ (ix3 b s k) ?_
  rw [Shape.rowMajor_val_three, Shape.rowMajor_val_two]
  show (b.val * 4096 + s.val) * 3072 + k.val = (4096 * b.val + s.val) * 3072 + k.val
  omega

/-- The unflattened result at (b, s, d) is the flat result at (4096 b + s, d). -/
theorem outR (O : FVec Ideal S8192x3072 .f32) (b : Fin 2) (s : Fin 4096) (d : Fin 3072) :
    (shapeCast S2x4096x3072 O shapeCasts_S8192x3072_S2x4096x3072 : FVec Ideal S2x4096x3072 .f32) (ix3 b s d)
      = O (ix2 (⟨4096 * b.val + s.val, by omega⟩ : Fin 8192) d) := by
  refine shapeCast_apply O shapeCasts_S8192x3072_S2x4096x3072 (ix3 b s d) _ ?_
  rw [Shape.rowMajor_val_three, Shape.rowMajor_val_two]
  show (4096 * b.val + s.val) * 3072 + d.val = (b.val * 4096 + s.val) * 3072 + d.val
  omega

/-! ## (c) The assembly -/

/-- Row 4096 b + s of the flattened input is row (4096 b + s) % 512 of block (4096 b + s) / 512. -/
theorem row_split (b : Fin 2) (s : Fin 4096) :
    (⟨4096 * b.val + s.val, by omega⟩ : Fin 8192)
      = rowIdx (⟨(4096 * b.val + s.val) / 512, by omega⟩ : Fin 16) (⟨(4096 * b.val + s.val) % 512, by omega⟩ : Fin 512) :=
  Fin.ext (by show 4096 * b.val + s.val = 512 * ((4096 * b.val + s.val) / 512) + (4096 * b.val + s.val) % 512; omega)

/-- If the flat result holds, at every row of every block, the running sum after the last step on the flattened and
    narrowed arrays, then the unflattened result is G of the three arrays. -/
theorem kernel_eq_G (X : FVec Ideal S2x4096x3072 .f32) (W13 : FVec Ideal S16384x3072 .f32) (W2 : FVec Ideal S3072x8192 .f32)
    (O : FVec Ideal S8192x3072 .f32)
    (hO : ∀ (i : Fin 16) (r : Fin 512) (d : Fin 3072), O (ix2 (rowIdx i r) d)
      = accAt (truncf .bf16 (shapeCast S8192x3072 X shapeCasts_S2x4096x3072_S8192x3072) bitsLt_bf16_f32 : FVec Ideal S8192x3072 .bf16)
          (truncf .bf16 W13 bitsLt_bf16_f32 : FVec Ideal S16384x3072 .bf16)
          (truncf .bf16 W2 bitsLt_bf16_f32 : FVec Ideal S3072x8192 .bf16) i 31 (ix2 r d)) :
    (shapeCast S2x4096x3072 O shapeCasts_S8192x3072_S2x4096x3072 : FVec Ideal S2x4096x3072 .f32) = Cert.Ffn.G X W13 W2 := by
  funext idx
  obtain ⟨b, s, d, rfl⟩ : ∃ (b : Fin 2) (s : Fin 4096) (d : Fin 3072), idx = ix3 b s d :=
    ⟨idx 0, idx 1, idx 2, eq_ix3 idx⟩
  rw [outR, row_split, hO, accAt_31, ← row_split]
  simp only [inX_row]
  rfl

end Cert.Ffn.Kfun

end
-- ==== Proof.FrameBlocks.lean ====
/-
  The arrays and blocks the tiled feed-forward kernel reads, as explicit functions.

  (1) When the region is entered the three staged arrays hold the host operations' results: the input flattened and
      narrowed, and the two weights narrowed; the arguments and the later buffers are as launched.
  (2) With the 16 × 32 grid's point t = 32·i + j, the four input windows' blocks are: rows 512·i … of the flattened
      input; rows 256·j … of the first half and rows 8192 + 256·j … of the second half of the fused weight; columns
      256·j … of the down-projection weight. A block's coordinate on an axis is the block index times the block's size
      plus the coordinate inside the block.
-/
import proofs.«115799_j50749333570204_1_alg».proof.Proof.FrameBase
import proofs.«115799_j50749333570204_1_alg».proof.Proof.KernelFun
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Pipeline.Value
import Idealize.ShloMosaic.Lib.Tactic
import Idealize.ShloMosaic.Lib.StableHlo.Run
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (c : Dev nD)

/-! ## What the staged arrays hold when the region is entered -/

/-- The flattened input, narrowed. -/
theorem V_v1 : @Eq (S8192x3072.Idx → EReal) (V m c main_v1)
    (truncf (F := Ideal) .bf16 (shapeCast S8192x3072 (m ((c : Thread nD τ).loc main_arg0) : FVec Ideal S2x4096x3072 .f32) shapeCasts_S2x4096x3072_S8192x3072) bitsLt_bf16_f32) := by
  dsimp only [V, V1, hostOps0]; after_results; first | done | rfl

/-- The fused weight, narrowed. -/
theorem V_v2 : @Eq (S16384x3072.Idx → EReal) (V m c main_v2)
    (truncf (F := Ideal) .bf16 (m ((c : Thread nD τ).loc main_arg1) : FVec Ideal S16384x3072 .f32) bitsLt_bf16_f32) := by
  dsimp only [V, V1, hostOps0]; after_results; first | done | rfl

/-- The down-projection weight, narrowed. -/
theorem V_v3 : @Eq (S3072x8192.Idx → EReal) (V m c main_v3)
    (truncf (F := Ideal) .bf16 (m ((c : Thread nD τ).loc main_arg2) : FVec Ideal S3072x8192 .f32) bitsLt_bf16_f32) := by
  dsimp only [V, V1, hostOps0]; after_results; first | done | rfl

/-- A reference other than the four results of the host operations is not written by them. -/
theorem hostOps0_not_written (b : Ref sig .tc) (hb : b ≠ main_v0 ∧ b ≠ main_v1 ∧ b ≠ main_v2 ∧ b ≠ main_v3) :
    ∀ op ∈ (hostOps0 (F := Ideal)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

theorem V_arg0 : V m c main_arg0 = m ((c : Thread nD τ).loc main_arg0) :=
  StableHlo.after_of_forall_not_mem (b := Proc.devRef .tc main_arg0) hostOps0 (V0 m c) (hostOps0_not_written main_arg0 (by decide))
theorem V_arg1 : V m c main_arg1 = m ((c : Thread nD τ).loc main_arg1) :=
  StableHlo.after_of_forall_not_mem (b := Proc.devRef .tc main_arg1) hostOps0 (V0 m c) (hostOps0_not_written main_arg1 (by decide))
theorem V_arg2 : V m c main_arg2 = m ((c : Thread nD τ).loc main_arg2) :=
  StableHlo.after_of_forall_not_mem (b := Proc.devRef .tc main_arg2) hostOps0 (V0 m c) (hostOps0_not_written main_arg2 (by decide))
theorem V_v4 : V m c main_v4 = m ((c : Thread nD τ).loc main_v4) :=
  StableHlo.after_of_forall_not_mem (b := Proc.devRef .tc main_v4) hostOps0 (V0 m c) (hostOps0_not_written main_v4 (by decide))
theorem V_v5 : V m c main_v5 = m ((c : Thread nD τ).loc main_v5) :=
  StableHlo.after_of_forall_not_mem (b := Proc.devRef .tc main_v5) hostOps0 (V0 m c) (hostOps0_not_written main_v5 (by decide))

/-! ## The input windows' blocks at a grid point -/

/-- The printed index maps over the grid: at point `t` = 32·i + j window 0 is at block (i, 0), window 1 at (j, 0),
    window 2 at (32 + j, 0) and window 3 at (0, j). -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = 32 + t.val % 32 ∧ win0_2.index t (1 : Fin 2) = 0
    ∧ win0_3.index t (0 : Fin 2) = 0 ∧ win0_3.index t (1 : Fin 2) = t.val % 32 :=
  (by decide +kernel : ∀ t : Fin grid0.N, _)

/-- A point's row-block number is below 16 and its tile number below 32. -/
theorem pt_div_lt (t : Fin cfg0.N) : t.val / 32 < 16 := by
  have hN : grid0.N = 512 := N_0
  have ht : t.val < grid0.N := t.isLt
  omega
theorem pt_mod_lt (t : Fin cfg0.N) : t.val % 32 < 32 := Nat.mod_lt _ (by decide)

/-- Window 0's block at point `t`: rows 512·(t / 32) … of the flattened input. -/
theorem iblk_0 (t : Fin cfg0.N) :
    @Eq (S512x3072.Idx → EReal) (iblk m c 0 t) (Cert.Ffn.Kfun.xBlk (V m c main_v1) ⟨t.val / 32, pt_div_lt t⟩) := by
  obtain ⟨e0, e1, -⟩ := idx_facts t
  funext y
  unfold iblk
  show V m c main_v1 (((cfg0.win 0).blk t).view.emb y)
    = V m c main_v1 (ix2 (Cert.Ffn.Kfun.rowIdx ⟨t.val / 32, pt_div_lt t⟩ (y 0)) (y 1))
  refine congrArg (V m c main_v1) (funext fun a => Fin.ext ?_)
  match a with
  | ⟨0, _⟩ => show win0_0.index t (0 : Fin 2) * 512 + 1 * (y 0).val = 512 * (t.val / 32) + (y 0).val; omega
  | ⟨1, _⟩ => show win0_0.index t (1 : Fin 2) * 3072 + 1 * (y 1).val = (y 1).val; omega

/-- Window 1's block at point `t`: rows 256·(t % 32) … of the fused weight's first half. -/
theorem iblk_1 (t : Fin cfg0.N) :
    @Eq (S256x3072.Idx → EReal) (iblk m c 1 t) (Cert.Ffn.Kfun.w3Blk (V m c main_v2) ⟨t.val % 32, pt_mod_lt t⟩) := by
  obtain ⟨-, -, e0, e1, -⟩ := idx_facts t
  funext y
  unfold iblk
  show V m c main_v2 (((cfg0.win 1).blk t).view.emb y)
    = V m c main_v2 (ix2 (Cert.Ffn.loRow (Cert.Ffn.tileIdx ⟨t.val % 32, pt_mod_lt t⟩ (y 0))) (y 1))
  refine congrArg (V m c main_v2) (funext fun a => Fin.ext ?_)
  match a with
  | ⟨0, _⟩ => show win0_1.index t (0 : Fin 2) * 256 + 1 * (y 0).val = 256 * (t.val % 32) + (y 0).val; omega
  | ⟨1, _⟩ => show win0_1.index t (1 : Fin 2) * 3072 + 1 * (y 1).val = (y 1).val; omega

/-- Window 2's block at point `t`: rows 8192 + 256·(t % 32) … of the fused weight, its second half. -/
theorem iblk_2 (t : Fin cfg0.N) :
    @Eq (S256x3072.Idx → EReal) (iblk m c 2 t) (Cert.Ffn.Kfun.w1Blk (V m c main_v2) ⟨t.val % 32, pt_mod_lt t⟩) := by
  obtain ⟨-, -, -, -, e0, e1, -⟩ := idx_facts t
  funext y
  unfold iblk
  show V m c main_v2 (((cfg0.win 2).blk t).view.emb y)
    = V m c main_v2 (ix2 (Cert.Ffn.hiRow (Cert.Ffn.tileIdx ⟨t.val % 32, pt_mod_lt t⟩ (y 0))) (y 1))
  refine congrArg (V m c main_v2) (funext fun a => Fin.ext ?_)
  match a with
  | ⟨0, _⟩ => show win0_2.index t (0 : Fin 2) * 256 + 1 * (y 0).val = 8192 + (256 * (t.val % 32) + (y 0).val); omega
  | ⟨1, _⟩ => show win0_2.index t (1 : Fin 2) * 3072 + 1 * (y 1).val = (y 1).val; omega

/-- Window 3's block at point `t`: columns 256·(t % 32) … of the down-projection weight. -/
theorem iblk_3 (t : Fin cfg0.N) :
    @Eq (S3072x256.Idx → EReal) (iblk m c 3 t) (Cert.Ffn.Kfun.w2Blk (V m c main_v3) ⟨t.val % 32, pt_mod_lt t⟩) := by
  obtain ⟨-, -, -, -, -, -, e0, e1⟩ := idx_facts t
  funext y
  unfold iblk
  show V m c main_v3 (((cfg0.win 3).blk t).view.emb y)
    = V m c main_v3 (ix2 (y 0) (Cert.Ffn.tileIdx ⟨t.val % 32, pt_mod_lt t⟩ (y 1)))
  refine congrArg (V m c main_v3) (funext fun a => Fin.ext ?_)
  match a with
  | ⟨0, _⟩ => show win0_3.index t (0 : Fin 2) * 3072 + 1 * (y 0).val = (y 0).val; omega
  | ⟨1, _⟩ => show win0_3.index t (1 : Fin 2) * 256 + 1 * (y 1).val = 256 * (t.val % 32) + (y 1).val; omega

end Cert.KernelIdeal.Gen

end
-- ==== Proof.FrameValue.lean ====
/-
  The value the tiled feed-forward kernel leaves in its result array.

  The grid has 16 × 32 points; point t = 32 i + j works on row block i (512 rows of the flattened input) and tile j
  (256 hidden units). The running sum after point t is the step function applied j + 1 times from the zero fill on the
  blocks of row block i and tiles 0 … j: the function accAt of the three staged arrays. The result window is written
  back at the points 32 i + 31 only, its block being rows 512 i … 512 i + 511 of the result array; these 16 blocks
  tile the array, so after the run the array holds, at row 512 i + r, the running sum after the last tile of row
  block i at row r. Unflattened, that is the specification G of the three argument arrays.
-/
import proofs.«115799_j50749333570204_1_alg».proof.Proof.FrameData
import proofs.«115799_j50749333570204_1_alg».proof.Proof.FrameBlocks
import proofs.«115799_j50749333570204_1_alg».proof.Proof.KernelFun
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (c : Dev nD)

/-! ## (1) The running sum is the iterated step -/

/-- The running sum read at an index depends on the position and the index only through their values. -/
theorem scrAt_congr {n n' : ℕ} (h : n = n') (hn : n < cfg0.N) (hn' : n' < cfg0.N) {y y' : S512x3072.Idx} (hy : y = y') :
    scrAt m c n hn y = scrAt m c n' hn' y' := by
  subst h; subst hy; rfl

/-- At point 32 i + j the running sum is the step function applied from the zero fill through tiles 0 … j of row
    block i: by induction on j, the first point of a row of tiles starting afresh. -/
theorem scrAt_eq_accAt_aux (i : Fin 16) : ∀ (j : ℕ) (hj : j < 32) (n : ℕ) (hn : n < cfg0.N), n = 32 * i.val + j →
    @Eq (S512x3072.Idx → EReal) (scrAt m c n hn)
      (Cert.Ffn.Kfun.accAt (V m c main_v1) (V m c main_v2) (V m c main_v3) i j)
  | 0, _, n, hn, e => by
    have h0 : (⟨n, hn⟩ : Fin cfg0.N).val % 32 = 0 := by show n % 32 = 0; omega
    have hi : (⟨(⟨n, hn⟩ : Fin cfg0.N).val / 32, pt_div_lt ⟨n, hn⟩⟩ : Fin 16) = i := Fin.ext (by show n / 32 = i.val; omega)
    have hz : (⟨(⟨n, hn⟩ : Fin cfg0.N).val % 32, pt_mod_lt ⟨n, hn⟩⟩ : Fin 32) = 0 := Fin.ext (by show n % 32 = 0; omega)
    refine (scrAt_first m c ⟨n, hn⟩ h0).trans ?_
    unfold stepAt
    rw [iblk_0, iblk_1, iblk_2, iblk_3, Cert.Ffn.Kfun.accAt_zero, hi, hz]
  | j + 1, hj, n, hn, e => by
    have h0 : ¬(⟨n, hn⟩ : Fin cfg0.N).val % 32 = 0 := by show ¬n % 32 = 0; omega
    have hi : (⟨(⟨n, hn⟩ : Fin cfg0.N).val / 32, pt_div_lt ⟨n, hn⟩⟩ : Fin 16) = i := Fin.ext (by show n / 32 = i.val; omega)
    have hjj : (⟨(⟨n, hn⟩ : Fin cfg0.N).val % 32, pt_mod_lt ⟨n, hn⟩⟩ : Fin 32) = ⟨(j + 1) % 32, Nat.mod_lt _ (by decide)⟩ :=
      Fin.ext (by show n % 32 = (j + 1) % 32; omega)
    have ih := scrAt_eq_accAt_aux i j (by omega) (n - 1) (by omega) (by omega)
    refine (scrAt_next m c ⟨n, hn⟩ h0).trans ?_
    unfold stepAt
    rw [iblk_0, iblk_1, iblk_2, iblk_3, Cert.Ffn.Kfun.accAt_succ, hi, hjj]
    exact congrArg _ ih

/-- The running sum after point t is accAt of the staged arrays at row block t / 32 after step t % 32. -/
theorem scrAt_eq_accAt (t : Fin cfg0.N) :
    @Eq (S512x3072.Idx → EReal) (scrAt m c t.val t.isLt)
      (Cert.Ffn.Kfun.accAt (V m c main_v1) (V m c main_v2) (V m c main_v3) ⟨t.val / 32, pt_div_lt t⟩ (t.val % 32)) :=
  scrAt_eq_accAt_aux m c ⟨t.val / 32, pt_div_lt t⟩ (t.val % 32) (pt_mod_lt t) t.val t.isLt
    (by show t.val = 32 * (t.val / 32) + t.val % 32; omega)

/-! ## (2) The result array after the run -/

/-- What the result array ends holding: at row 512 q + r, the running sum after the last tile of row block q, at row r. -/
def G4 : S8192x3072.Idx → EReal := fun y =>
  scrAt m c (32 * ((y 0).val / 512) + 31)
    (by have h := idx2_lt0 y; have hN : cfg0.N = 512 := N_0; omega)
    (ix2 (⟨(y 0).val % 512, Nat.mod_lt _ (by decide)⟩ : Fin 512) (y 1))

/-- The result window's block index over the grid: at point t it is block (t / 32, 0). -/
theorem idx_facts4 : ∀ t : Fin cfg0.N, win0_4.index t (0 : Fin 2) = t.val / 32 ∧ win0_4.index t (1 : Fin 2) = 0 :=
  (by decide +kernel : ∀ t : Fin grid0.N, _)

/-- What a point that writes back writes is its block of G4: the point is 32 q + 31 and its block is rows 512 q …. -/
theorem flushed4_eq (t : Fin cfg0.N) (hf : (cfg0.win 4).flush t = true) :
    (dats m 0 c).flushed 4 t = ((cfg0.win 4).blk t).view.read (Elt Ideal) (G4 m c) := by
  have h31 : t.val % 32 = 31 := (flush0_4 t).mp hf
  obtain ⟨e0, e1⟩ := idx_facts4 t
  show (cfg0.win 4).cut (grid0.coords t) ((dats m 0 c).after 4 t) = _
  rw [after0_4]
  funext j
  have hj0 : (j 0).val < 512 := (j 0).isLt
  have hemb0 : ((((cfg0.win 4).blk t).view.emb j) 0).val = t.val / 32 * 512 + (j 0).val := by
    show win0_4.index t (0 : Fin 2) * 512 + 1 * (j 0).val = _; omega
  have hemb1 : ((((cfg0.win 4).blk t).view.emb j) 1).val = (j 1).val := by
    show win0_4.index t (1 : Fin 2) * 3072 + 1 * (j 1).val = _; omega
  show scrAt m c t.val t.isLt ((cfg0.win 4).xinj (grid0.coords t) j) = G4 m c (((cfg0.win 4).blk t).view.emb j)
  unfold G4
  refine scrAt_congr m c (by rw [hemb0]; omega) _ _ (funext fun a => Fin.ext ?_)
  match a with
  | ⟨0, _⟩ => show (j 0).val = ((((cfg0.win 4).blk t).view.emb j) 0).val % 512; rw [hemb0]; omega
  | ⟨1, _⟩ => show (j 1).val = ((((cfg0.win 4).blk t).view.emb j) 1).val; rw [hemb1]

/-- Every index of the result array is in the block of a point that writes back: row 512 q + r is in point 32 q + 31's. -/
theorem cover4 (i : S8192x3072.Idx) :
    ∃ t : Fin cfg0.N, (cfg0.win 4).flush t = true ∧ i ∈ ((cfg0.win 4).blk t).view.set := by
  have hN : cfg0.N = 512 := N_0
  have hi0 : (i 0).val < 8192 := idx2_lt0 i
  have hi1 : (i 1).val < 3072 := idx2_lt1 i
  obtain ⟨t, ht⟩ : ∃ t : Fin cfg0.N, t.val = 32 * ((i 0).val / 512) + 31 := ⟨⟨_, by omega⟩, rfl⟩
  obtain ⟨e0, e1⟩ := idx_facts4 t
  refine ⟨t, (flush0_4 t).mpr (by omega), ?_⟩
  show i ∈ ((View.whole main_v4).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 3072 ≤ (i 1).val ∧ (i 1).val < win0_4.index t (1 : Fin 2) * 3072 + 3072; omega

/-- So the result array ends holding G4. -/
theorem final4 : @Eq (S8192x3072.Idx → EReal) ((dats m 0 c).arrAt 4 cfg0.N) (G4 m c) :=
  (dats m 0 c).arrAt_eq_of_cover 4 (G4 m c) (flushed4_eq m c) (fun i => cover4 i)

/-- At row 512 i + r, column d the result array holds the running sum after the last tile of row block i. -/
theorem finalO (i : Fin 16) (r : Fin 512) (d : Fin 3072) :
    ((dats m 0 c).arrAt 4 cfg0.N : S8192x3072.Idx → EReal) (ix2 (Cert.Ffn.Kfun.rowIdx i r) d)
      = scrAt m c (32 * i.val + 31) (by have hN : cfg0.N = 512 := N_0; omega) (ix2 r d) := by
  refine (congrFun (final4 m c) _).trans ?_
  unfold G4
  refine scrAt_congr m c (by show 32 * ((512 * i.val + r.val) / 512) + 31 = 32 * i.val + 31; omega) _ _
    (funext fun a => Fin.ext ?_)
  match a with
  | ⟨0, _⟩ => show (512 * i.val + r.val) % 512 = r.val; omega
  | ⟨1, _⟩ => rfl

/-! ## (3) The assembly -/

/-- The result array, unflattened, is G of the three argument arrays: at row 512 i + r it holds the running sum after
    point 32 i + 31, which is the step function applied through all 32 tiles of row block i on the staged arrays, and
    the staged arrays are the flattened and narrowed arguments. -/
theorem kernel_value :
    (shapeCast S2x4096x3072 ((dats m 0 c).arrAt 4 cfg0.N : FVec Ideal S8192x3072 .f32) shapeCasts_S8192x3072_S2x4096x3072 : FVec Ideal S2x4096x3072 .f32)
      = Cert.Ffn.G (m ((c : Thread nD τ).loc main_arg0)) (m ((c : Thread nD τ).loc main_arg1)) (m ((c : Thread nD τ).loc main_arg2)) := by
  refine Cert.Ffn.Kfun.kernel_eq_G _ _ _ _ (fun i r d => ?_)
  rw [finalO, scrAt_eq_accAt_aux m c i 31 (by decide) _ _ rfl, V_v1, V_v2, V_v3]

end Cert.KernelIdeal.Gen

end
-- ==== Proof.FrameTail.lean ====
/-
  The end of the run: the one host operation after the kernel region unflattens the call's result, so the final result's
  buffer holds the unflattening of what the region's write-backs made of the call's result; with the value of that array
  as the specification `G` of the three arguments, every final state of @main has the result at `G` of the arguments and the
  arguments as launched.
-/
import proofs.«115799_j50749333570204_1_alg».proof.Proof.FrameLaunch
import proofs.«115799_j50749333570204_1_alg».proof.Proof.Spec
import proofs.«115799_j50749333570204_1_alg».proof.Proof.FrameValue
import Idealize.ShloMosaic.Lib.StableHlo.Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyValues

variable {F : FTy → Type} [FloatOps F]
variable (m : (ℓ : Loc nD τ sig) → Buf (Elt F) ℓ)

/-- After the reshape that follows the call, the final result's buffer holds the unflattening of what the write-backs
    made of the call's result. -/
theorem V3_v5 (c : Dev nD) : @Eq (S2x4096x3072.Idx → Elt F .f32) (V3 m c (Proc.devRef .tc main_v5))
    (shapeCast S2x4096x3072 ((dats m 0 c).arrAt 4 cfg0.N : S8192x3072.Idx → Elt F .f32) shapeCasts_S8192x3072_S2x4096x3072) := by
  dsimp only [V3, hostOps1]
  after_results
  first
  | done
  | (rw [V2_v4]; first | done | rfl)

end AnyValues

section AtIdeal

variable (m : (ℓ : Loc nD τ sig) → Buf (Elt Ideal) ℓ) (ρ : Dev nD → PrngReg)

/-- THE VALUE RUN, given the value of the call's result: if on every core the unflattening of what the write-backs made of
    the call's result is `G` of the three arguments as launched, then from any memory with zero counters every weakly fair
    execution of @main terminates, nothing faulting, and every final state has the final result's buffer at `G` of the
    arguments and the three arguments as launched. -/
theorem value_run_of
    (hkv : ∀ c : Dev nD, @Eq (S2x4096x3072.Idx → EReal)
      (shapeCast S2x4096x3072 ((dats m 0 c).arrAt 4 cfg0.N : FVec Ideal S8192x3072 .f32) shapeCasts_S8192x3072_S2x4096x3072)
      (Cert.Ffn.G (m ((c : Thread nD τ).loc main_arg0)) (m ((c : Thread nD τ).loc main_arg1)) (m ((c : Thread nD τ).loc main_arg2)))) :
    θ_run defs (onTc (τ := τ) (main (F := Ideal))) (s₀ m ρ) (fun r => ∀ c : Dev nD,
      @Eq (S2x4096x3072.Idx → EReal) (r.2.mem ((c.tc : Thread nD τ).loc main_v5))
        (Cert.Ffn.G (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans ((V3_v5 m c).trans (hkv c)), (h c).2⟩) (run_main (F := Ideal) m ρ)

end AtIdeal

section AtIdeal

variable (m : (ℓ : Loc nD τ sig) → Buf (Elt Ideal) ℓ) (ρ : Dev nD → PrngReg)

/-- THE VALUE RUN: from any memory with zero counters every weakly fair execution of @main terminates, nothing faulting,
    and every final state has the final result's buffer at `G` of the three arguments and the arguments as launched. -/
theorem value_run :
    θ_run defs (onTc (τ := τ) (main (F := Ideal))) (s₀ m ρ) (fun r => ∀ c : Dev nD,
      @Eq (S2x4096x3072.Idx → EReal) (r.2.mem ((c.tc : Thread nD τ).loc main_v5))
        (Cert.Ffn.G (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  value_run_of m ρ (kernel_value m)

end AtIdeal

end Cert.KernelIdeal.Gen

end
-- ==== Proof.RefIsG.lean ====
/-
  The reference program computes the feed-forward block G of the specification.

  Read at one index, its stages are: the fused projection, which is proj of the row of the input; the two slices, which
  read rows h and 8192 + h of that projection; the gate u * (1 / (1 + e^(-u))) * v clamped to [-65504, 65504], where the
  word 0x3F800000 is the number one, so that the quotient is the logistic function by its definition; and the last
  contraction, which is outRow. No finiteness is used anywhere: every step is an equation between extended reals that
  holds by unfolding definitions, after the index functions of the stages are identified with the coordinate
  constructors of the specification.
-/
import proofs.«115799_j50749333570204_1_alg».proof.Proof.Gen.ReferenceIdeal.Read
import proofs.«115799_j50749333570204_1_alg».proof.Proof.Spec

noncomputable section

namespace Cert.Ffn.Ref

open Cert.ReferenceIdeal Cert.ReferenceIdeal.Gen Cert.ReferenceIdeal.Read Idealize.ShloMosaic Idealize.ShloMosaic.StableHlo Idealize.ShloMosaic.ValueIdx

/-- The word 0x3F800000 denotes the number one. -/
theorem one_word : Ideal.ofBits .f32 0x3F800000#32 = (1 : EReal) := by
  simp [Ideal.ofBits, Ideal.ieee]
  rw [← EReal.coe_mul, ← EReal.coe_one]
  congr 1
  norm_num

/-! ## The index functions of the stages, on coordinates -/

/-- The first contraction reads the input at (b, s, k) … -/
theorem lidx0 (b : Fin 2) (s : Fin 4096) (h : Fin 16384) (k : Fin 3072) :
    lidx_main_v0 (ix3 b s h) k = ix3 b s k := by
  funext a; match a with | ⟨0, _⟩ => rfl | ⟨1, _⟩ => rfl | ⟨2, _⟩ => rfl

/-- … and the fused weight at (h, k). -/
theorem ridx0 (b : Fin 2) (s : Fin 4096) (h : Fin 16384) (k : Fin 3072) :
    ridx_main_v0 (ix3 b s h) k = ix2 h k := by
  funext a; match a with | ⟨0, _⟩ => rfl | ⟨1, _⟩ => rfl

/-- The first slice reads column h of the projection. -/
theorem idx1 (b : Fin 2) (s : Fin 4096) (h : Fin 8192) :
    idx_main_v1 (ix3 b s h) = ix3 b s (loRow h) := by
  funext a; match a with | ⟨0, _⟩ => rfl | ⟨1, _⟩ => rfl | ⟨2, _⟩ => rfl

/-- The second slice reads column 8192 + h of the projection. -/
theorem idx2 (b : Fin 2) (s : Fin 4096) (h : Fin 8192) :
    idx_main_v2 (ix3 b s h) = ix3 b s (hiRow h) := by
  funext a; match a with | ⟨0, _⟩ => rfl | ⟨1, _⟩ => rfl | ⟨2, _⟩ => rfl

/-- The last contraction reads the hidden array at (b, s, k) … -/
theorem lidx6 (b : Fin 2) (s : Fin 4096) (d : Fin 3072) (k : Fin 8192) :
    lidx_main_v6 (ix3 b s d) k = ix3 b s k := by
  funext a; match a with | ⟨0, _⟩ => rfl | ⟨1, _⟩ => rfl | ⟨2, _⟩ => rfl

/-- … and the down-projection weight at (d, k). -/
theorem ridx6 (b : Fin 2) (s : Fin 4096) (d : Fin 3072) (k : Fin 8192) :
    ridx_main_v6 (ix3 b s d) k = ix2 d k := by
  funext a; match a with | ⟨0, _⟩ => rfl | ⟨1, _⟩ => rfl

/-! ## The stages at an index -/

/-- One entry of the fused projection is proj of the row of the input. -/
theorem v0_at (x : FVec Ideal S2x4096x3072 .f32) (w13 : FVec Ideal S16384x3072 .f32)
    (b : Fin 2) (s : Fin 4096) (h : Fin 16384) :
    val_main_v0 (F := Ideal) x w13 (ix3 b s h) = proj (fun k => x (ix3 b s k)) w13 h := by
  rw [val_main_v0_apply]
  simp only [lidx0, ridx0]
  rfl

/-- One entry of the clamped gated product is hid of the row of the input. -/
theorem v5_at (x : FVec Ideal S2x4096x3072 .f32) (w13 : FVec Ideal S16384x3072 .f32)
    (b : Fin 2) (s : Fin 4096) (h : Fin 8192) :
    val_main_v5 (F := Ideal) x w13 (ix3 b s h) = hid (fun k => x (ix3 b s k)) w13 h := by
  rw [val_main_v5_apply, val_main_call1_v4_apply, val_main_call1_v3_apply, val_main_cst_0_apply,
    val_main_call1_v2_apply, val_main_call1_v1_apply, val_main_call1_v0_apply, val_main_cst_apply,
    val_main_v4_apply, val_main_v3_apply, val_main_call0_v5_apply, val_main_call0_v4_apply,
    val_main_call0_cst_0_apply, val_main_call0_v3_apply, val_main_call0_v2_apply, val_main_call0_cst_apply,
    val_main_call0_v1_apply, val_main_call0_v0_apply, val_main_v1_apply, val_main_v2_apply, idx1, idx2,
    v0_at, v0_at]
  simp only [Ideal.minimumf_def, Ideal.maximumf_def, Ideal.mulf_def, Ideal.hostDivf_def, Ideal.addf_def,
    Ideal.hostUnary_exp_def, Ideal.hostNegf_def, Ideal.negf_def, Ideal.ofBits_def, one_word]
  rfl

/-! ## The result -/

/-- The last stage of the reference program is G. -/
theorem ref_eq (x : FVec Ideal S2x4096x3072 .f32) (w13 : FVec Ideal S16384x3072 .f32)
    (w2 : FVec Ideal S3072x8192 .f32) :
    val_main_v6 (F := Ideal) x w13 w2 = G x w13 w2 := by
  funext i
  obtain ⟨b, s, d, rfl⟩ : ∃ (b : Fin 2) (s : Fin 4096) (d : Fin 3072), i = ix3 b s d :=
    ⟨i 0, i 1, i 2, eq_ix3 i⟩
  rw [val_main_v6_apply]
  simp only [lidx6, ridx6, v5_at]
  rfl

/-- The same equation with the composed term of the whole program written out (the term the run of the reference
    program leaves in its result): the composed term is the last stage by definition. -/
theorem ref_term_eq (x : FVec Ideal S2x4096x3072 .f32) (w13 : FVec Ideal S16384x3072 .f32)
    (w2 : FVec Ideal S3072x8192 .f32) :
    Host.dotGeneral (F := Ideal) dot_S2x4096x8192_S3072x8192_S2x4096x3072_2_1_01_0_n_n none
      (minimumf (broadcastInDim S2x4096x8192 ![] bcast_S_S2x4096x8192 (id (constant (F := Ideal) S_ .f32 0x477FE000#32)))
        (maximumf (broadcastInDim S2x4096x8192 ![] bcast_S_S2x4096x8192 (id (constant (F := Ideal) S_ .f32 0xC77FE000#32)))
          (mulf
            (mulf (extractStridedSlice S2x4096x8192 ![0, 0, 8192] (Host.dotGeneral (F := Ideal) dot_S2x4096x3072_S16384x3072_S2x4096x16384_2_1_01_0_n_n none x w13) slices_S2x4096x16384_S2x4096x8192_0_0_8192)
              (Host.divf (F := Ideal) (broadcastInDim S2x4096x8192 ![] bcast_S_S2x4096x8192 (constant (F := Ideal) S_ .f32 0x3F800000#32))
                (addf (broadcastInDim S2x4096x8192 ![] bcast_S_S2x4096x8192 (constant (F := Ideal) S_ .f32 0x3F800000#32))
                  (Host.exp (F := Ideal) (Host.negf (F := Ideal) (extractStridedSlice S2x4096x8192 ![0, 0, 8192] (Host.dotGeneral (F := Ideal) dot_S2x4096x3072_S16384x3072_S2x4096x16384_2_1_01_0_n_n none x w13) slices_S2x4096x16384_S2x4096x8192_0_0_8192))))))
            (extractStridedSlice S2x4096x8192 ![0, 0, 0] (Host.dotGeneral (F := Ideal) dot_S2x4096x3072_S16384x3072_S2x4096x16384_2_1_01_0_n_n none x w13) slices_S2x4096x16384_S2x4096x8192_0_0_0))))
      w2
      = G x w13 w2 :=
  (val_main_v6_eq (F := Ideal) x w13 w2).trans (ref_eq x w13 w2)

end Cert.Ffn.Ref

end
-- ==== Proof.lean ====
/-
  The gated feed-forward block: a tiled kernel against the two-einsum reference, over the extended reals.

  Both programs compute, for every row x of the input (8192 rows of 3072 numbers, the input's two leading axes
  flattened), every hidden unit h < 8192 and every output column d < 3072,

      u_h = Σ_k x_k · W13[8192 + h, k],   v_h = Σ_k x_k · W13[h, k],
      g_h = min(65504, max(−65504, u_h · (1 / (1 + e^(−u_h))) · v_h)),        out_d = Σ_h g_h · W2[d, h].

  The reference does it with two whole contractions. The kernel walks a 16 × 32 grid: at point (i, j) it sees rows
  512 i … of the input, rows 256 j … of each half of the fused weight and columns 256 j … of the down-projection weight,
  forms the 512 × 256 tile of g, multiplies it into a 512 × 3072 partial product and adds that to a running sum kept in
  a buffer of its own — zeroed at j = 0, copied into the result's block i at j = 31. The changes of float format on the
  way (the inputs narrowed before the call, g narrowed before its product) are the identity on the extended reals, the
  kernel's logistic is by definition 1 / (1 + e^(−u)), and both sides use the same two clamp words.

  So the two results differ only in how the sum over the 8192 hidden units is grouped: the reference's one sum against
  the kernel's 32 tiles of 256 added left to right from zero. Addition of extended reals is commutative and associative,
  so the regrouping needs no finiteness: the precondition is never opened.

  The frames: each program terminates, faults nowhere and leaves its arguments as they were. For the two kernel
  programs this is the run of @main as two host stretches around the kernel region, the region's invariant tracking the
  running sum point by point; the fused weight's array is read through two windows, each holding half of it. The
  reference's frame is its run with the result dropped. The idealization rewrote nothing, so `preserves` is trivial.
-/
import proofs.«115799_j50749333570204_1_alg».proof.Defs
import proofs.«115799_j50749333570204_1_alg».proof.Proof.Gen.Kernel
import proofs.«115799_j50749333570204_1_alg».proof.Proof.Gen.KernelIdeal
import proofs.«115799_j50749333570204_1_alg».proof.Proof.Gen.ReferenceIdeal
import proofs.«115799_j50749333570204_1_alg».proof.Proof.Gen.Pre_finite_inputs
import proofs.«115799_j50749333570204_1_alg».proof.Proof.Gen.ReferenceIdeal.Run
import proofs.«115799_j50749333570204_1_alg».proof.Proof.FrameLaunchK
import proofs.«115799_j50749333570204_1_alg».proof.Proof.FrameTail
import proofs.«115799_j50749333570204_1_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel program runs to the end and keeps its arguments. -/
theorem frame_k : Cert.frame_Kernel := fun m ρ _ =>
  (θ_run Cert.Kernel.defs _ _).mono (fun _ h c => (h c).2) (Cert.Kernel.Gen.run_main (F := Bits) m ρ)

/-- So does its reading over the extended reals. -/
theorem frame_ki : Cert.frame_KernelIdeal := fun m ρ _ =>
  (θ_run Cert.KernelIdeal.defs _ _).mono (fun _ h c => (h c).2) (Cert.KernelIdeal.Gen.run_main (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result and the reference's are the same function of arguments that agree:
    the kernel's 32 tiles added from zero are the reference's one sum over the hidden units. -/
theorem algebraic : Cert.algebraic_KernelIdeal_ReferenceIdeal := by
  intro m ρ m' ρ' _ hagree
  refine ⟨fun c => Cert.Ffn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Gen.value_run m ρ, ?_⟩
  refine (θ_run Cert.ReferenceIdeal.defs _ _).mono (fun _ h c => ⟨?_, (h c).2⟩) (Cert.ReferenceIdeal.Value.run (F := Ideal) m' ρ')
  rw [(h c).1, Cert.Ffn.Ref.ref_term_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
